-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S10x128 .f32) (main_arg13 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg12
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128 .f32) (main_arg12 : FVec F S10x128 .f32) (main_arg13 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S10x128 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩
abbrev S128x1 : Shape := ⟨2, ![128, 1]⟩
abbrev S128x10 : Shape := ⟨2, ![128, 10]⟩
abbrev S1x10 : Shape := ⟨2, ![1, 10]⟩

abbrev nBuf : Space → Nat
  | .hbm => 86
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10x128, .f32⟩
  | .hbm, ⟨13, _⟩ => ⟨S10, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S100000x128, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .bf16⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S128, .f32⟩
  | .hbm, ⟨69, _⟩ => ⟨S100000x1, .i32⟩
  | .hbm, ⟨70, _⟩ => ⟨S128, .f32⟩
  | .hbm, ⟨71, _⟩ => ⟨S_, .f32⟩
  | .hbm, ⟨72, _⟩ => ⟨S128x128, .f32⟩
  | .hbm, ⟨73, _⟩ => ⟨S100000x1, .i32⟩
  | .hbm, ⟨74, _⟩ => ⟨S128x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128x1, .f32⟩
  | .hbm, ⟨79, _⟩ => ⟨S128x128, .f32⟩
  | .hbm, ⟨80, _⟩ => ⟨S128x128, .f32⟩
  | .hbm, ⟨81, _⟩ => ⟨S128x128, .f32⟩
  | .hbm, ⟨82, _⟩ => ⟨S128x10, .f32⟩
  | .hbm, ⟨83, _⟩ => ⟨S1x128, .f32⟩
  | .hbm, ⟨84, _⟩ => ⟨S1x10, .f32⟩
  | .hbm, ⟨85, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x10, .f32⟩
  | .local _ .vmem, ⟨26, _⟩ => ⟨S1x10, .f32⟩
  | .local _ .vmem, ⟨27, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S128 : S_.BroadcastsInDim S128 (![] : Fin 0 → Fin S128.rank)
  bcast_S100000_S100000x1_0 : S100000.BroadcastsInDim S100000x1 (![0] : Fin 1 → Fin S100000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S10x128_S128x10_1_0 : S10x128.Transposes [1, 0] S128x10
  shapeCasts_S10_S1x10 : S10.ShapeCasts S1x10
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x128_S128x128 : S1x128.Broadcasts S128x128
  broadcasts_S1x10_S128x10 : S1x10.Broadcasts S128x10
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S128x128.size a
  hwx2_0 : ∀ i : grid2.Coords, EltTy.bits .f32 = 32 ∨ (Rect.block (s := S128x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x10.size a ≤ S128x10.size a
  hwx2_5 : ∀ i : grid2.Coords, EltTy.bits .f32 = 32 ∨ (Rect.block (s := S128x10) S128x10.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S128x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x1 : Shape := ⟨2, ![128, 1]⟩
abbrev S128x10 : Shape := ⟨2, ![128, 10]⟩
abbrev S1x10 : Shape := ⟨2, ![1, 10]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S10x128, .f32⟩
  | 13 => ⟨S10, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000x128, .f32⟩
  | 41 => ⟨S100000x128, .f32⟩
  | 42 => ⟨S128x128, .f32⟩
  | 43 => ⟨S100000x128, .f32⟩
  | 44 => ⟨S128x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .i1⟩
  | 53 => ⟨S_, .f32⟩
  | 54 => ⟨S100000x128, .f32⟩
  | 55 => ⟨S100000x128, .i1⟩
  | 56 => ⟨S_, .f32⟩
  | 57 => ⟨S_, .f32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .i1⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000x128, .f32⟩
  | 86 => ⟨S100000x128, .f32⟩
  | 87 => ⟨S128x128, .f32⟩
  | 88 => ⟨S100000x128, .f32⟩
  | 89 => ⟨S128x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .i1⟩
  | 98 => ⟨S_, .f32⟩
  | 99 => ⟨S100000x128, .f32⟩
  | 100 => ⟨S100000x128, .i1⟩
  | 101 => ⟨S_, .f32⟩
  | 102 => ⟨S_, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .i1⟩
  | 113 => ⟨S_, .f32⟩
  | 114 => ⟨S100000x128, .f32⟩
  | 115 => ⟨S100000x128, .f32⟩
  | 116 => ⟨S100000x128, .f32⟩
  | 117 => ⟨S_, .f32⟩
  | 118 => ⟨S100000, .f32⟩
  | 119 => ⟨S_, .f32⟩
  | 120 => ⟨S128, .f32⟩
  | 121 => ⟨S100000x1, .i32⟩
  | 122 => ⟨S128, .f32⟩
  | 123 => ⟨S_, .f32⟩
  | 124 => ⟨S128x128, .f32⟩
  | 125 => ⟨S100000x1, .i32⟩
  | 126 => ⟨S128x128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128x1, .f32⟩
  | 3 => ⟨S128x128, .f32⟩
  | 4 => ⟨S128x128, .f32⟩
  | 5 => ⟨S128x128, .f32⟩
  | 6 => ⟨S128x128, .f32⟩
  | 7 => ⟨S1x128, .f32⟩
  | 8 => ⟨S128x128, .f32⟩
  | 9 => ⟨S128x128, .f32⟩
  | 10 => ⟨S_, .f32⟩
  | 11 => ⟨S128x128, .f32⟩
  | 12 => ⟨S128x128, .i1⟩
  | 13 => ⟨S_, .f32⟩
  | 14 => ⟨S128x128, .f32⟩
  | 15 => ⟨S128x128, .f32⟩
  | 16 => ⟨S128x128, .f32⟩
  | 17 => ⟨S128x10, .f32⟩
  | 18 => ⟨S128x10, .f32⟩
  | 19 => ⟨S1x10, .f32⟩
  | 20 => ⟨S128x10, .f32⟩
  | 21 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_cst_1 : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_v4 : Ref sig .tc := ⟨.hbm, 59, rfl⟩
abbrev main_call0_v5 : Ref sig .tc := ⟨.hbm, 60, rfl⟩
abbrev main_call0_cst_2 : Ref sig .tc := ⟨.hbm, 61, rfl⟩
abbrev main_call0_v6 : Ref sig .tc := ⟨.hbm, 62, rfl⟩
abbrev main_call0_v7 : Ref sig .tc := ⟨.hbm, 63, rfl⟩
abbrev main_v29 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_v30 : Ref sig .tc := ⟨.hbm, 71, rfl⟩
abbrev main_c_5 : Ref sig .tc := ⟨.hbm, 72, rfl⟩
abbrev main_v31 : Ref sig .tc := ⟨.hbm, 73, rfl⟩
abbrev main_v32 : Ref sig .tc := ⟨.hbm, 74, rfl⟩
abbrev main_c_6 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_7 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_cst_1 : Ref sig .tc := ⟨.hbm, 101, rfl⟩
abbrev main_call2_call0_v0 : Ref sig .tc := ⟨.hbm, 102, rfl⟩
abbrev main_call2_call0_v1 : Ref sig .tc := ⟨.hbm, 103, rfl⟩
abbrev main_call2_v4 : Ref sig .tc := ⟨.hbm, 104, rfl⟩
abbrev main_call2_v5 : Ref sig .tc := ⟨.hbm, 105, rfl⟩
abbrev main_call2_cst_2 : Ref sig .tc := ⟨.hbm, 106, rfl⟩
abbrev main_call2_v6 : Ref sig .tc := ⟨.hbm, 107, rfl⟩
abbrev main_call2_v7 : Ref sig .tc := ⟨.hbm, 108, rfl⟩
abbrev main_v51 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_v52 : Ref sig .tc := ⟨.hbm, 116, rfl⟩
abbrev main_cst_8 : Ref sig .tc := ⟨.hbm, 117, rfl⟩
abbrev main_v53 : Ref sig .tc := ⟨.hbm, 118, rfl⟩
abbrev main_cst_9 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_10 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_11 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_cst_0 : Ref sig .tc := ⟨.hbm, 141, rfl⟩
abbrev main_call4_v2 : Ref sig .tc := ⟨.hbm, 142, rfl⟩
abbrev main_call4_v3 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  transposes_S10x128_S128x10_1_0 : S10x128.Transposes [1, 0] S128x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KRun.lean ====
/-
  The idealized kernel's run with its result NAMED: every weakly fair execution of @main terminates,
  nothing faulting, with the result array at the contents the last region's write-backs leave
  (the fold of the program's six segments from the launch memory, read at the result's buffer) and
  every argument array as launched.  The run is the library's theorem for a program of several
  regions among stretches of host operations, at the segments and the proof data of the frame; what
  is added here is the reading of the final thread state at the result's buffer.
-/
import proofs.«118931_j30133490549162_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes
-- unfolding plain definitions in a metavariable's type
set_option backward.isDefEq.respectTransparency.types false in
/-- The run of @main with the result's buffer read off the last boundary's contents. -/
theorem run : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.KRun

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibGraphLayers.lean ====
/-
  The layers of a two-layer hypergraph convolution, read as functions of indices on the extended reals.

  With G the [n, n] propagation matrix, the network is  out = G (relu (G (X W1 + b1)) W2 + b2).  Three pieces make it up:
  the matrix product  (x w)(r, c) = sum_k x(r, k) * w(k, c),  the rectifier  max(v, 0)  entry by entry, and the dense
  layer  x w + b  whose bias is added to every row.  Each is stated once, generic in the extents, and the spellings
  in which a kernel body and a host program write it are read to it: a matrix product accumulated into a zero
  matrix, with or without its operands narrowed to bf16 (a change of format is the identity on extended reals), and
  the host's general dot product; the maximum against a splatted or a broadcast zero; a bias that arrives as a
  [1, N] row, cast to its own shape and repeated down the rows.

  An entry (r, c) of a product depends on row r of the left factor and column c of the right factor only.  That is
  what lets a kernel that computes a block of rows at a time, or that carries columns of zero padding beside the real
  ones, be compared with a reference that multiplies whole unpadded matrices.
-/
import proofs.«118931_j30133490549162_2_alg».proof.Proof.LibDense
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibGraphLayers

open Idealize.ShloMosaic Idealize.ShloMosaic.ValueIdx Cert.LibDense

/-- The zero offsets of a rank-two access, as a constant function. -/
theorem zero_offsets : (![0, 0] : Fin 2 → Nat) = fun _ => 0 := funext fun a => by fin_cases a <;> rfl

/-! ## The matrix product -/

/-- The product of an [A, K] by a [K, N] matrix: entry (r, c) is the sum over k of x(r, k) * w(k, c). -/
def mm (A K N : ℕ) (x : (⟨2, ![A, K]⟩ : Shape).Idx → EReal) (w : (⟨2, ![K, N]⟩ : Shape).Idx → EReal) :
    (⟨2, ![A, N]⟩ : Shape).Idx → EReal :=
  fun j => ∑ k : Fin K, x (ix2 (j 0 : Fin A) k) * w (ix2 k (j 1 : Fin N))

/-- A kernel's product of bf16-narrowed operands into the zero matrix is the product. -/
theorem mm_kernel_bf16 {A K N : ℕ} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = mm A K N x w := by
  funext j
  exact (Ideal.matmul_constant_zero_apply (DotDims.plain A K N) none (truncf .bf16 x hlt) (truncf .bf16 w hlt) j).trans
    (plain_sum A K N x w j)

/-- A kernel's product of f32 operands into the zero matrix is the product. -/
theorem mm_kernel_f32 {A K N : ℕ} (x : FVec Ideal ⟨2, ![A, K]⟩ .f32) (w : FVec Ideal ⟨2, ![K, N]⟩ .f32) :
    matmul (DotDims.plain A K N) none x w (constant ⟨2, ![A, N]⟩ .f32 0x00000000#32) = mm A K N x w := by
  funext j
  exact (Ideal.matmul_constant_zero_apply (DotDims.plain A K N) none x w j).trans (plain_sum A K N x w j)

/-- The host's general dot product with the plain dimension numbers is the product. -/
theorem mm_host {A K N : ℕ} (x : FVec Ideal ⟨2, ![A, K]⟩ .f32) (w : FVec Ideal ⟨2, ![K, N]⟩ .f32) :
    Host.dotGeneral (DotDims.plain A K N) none x w = mm A K N x w := by
  funext j
  exact (Ideal.dotGeneral_apply (DotDims.plain A K N) none _ x w j).trans (plain_sum A K N x w j)

/-- Entry (p, q) of a product depends on row p of the left factor and column q of the right factor only. -/
theorem mm_congr {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (p : Fin A) (p' : Fin A') (q : Fin N) (q' : Fin N')
    (hx : ∀ k : Fin K, x (ix2 p k) = x' (ix2 p' k)) (hw : ∀ k : Fin K, w (ix2 k q) = w' (ix2 k q')) :
    mm A K N x w (ix2 p q) = mm A' K N' x' w' (ix2 p' q') := by
  show ∑ k : Fin K, x (ix2 p k) * w (ix2 k q) = ∑ k : Fin K, x' (ix2 p' k) * w' (ix2 k q')
  exact Finset.sum_congr rfl fun k _ => by rw [hx k, hw k]

/-! ## The rectifier -/

/-- The rectifier, entry by entry: the larger of the entry and zero. -/
def relu {s : Shape} (v : s.Idx → EReal) : s.Idx → EReal := fun j => max (v j) 0

/-- A kernel's maximum against a splatted zero word is the rectifier. -/
theorem relu_kernel {s : Shape} (v : FVec Ideal s .f32) :
    maximumf v (broadcast s (Scalar.ofBits (F := Ideal) .f32 0x00000000#32)) = relu v := by
  funext j
  show max (v j) (Ideal.ofBits .f32 0x00000000#32) = max (v j) 0
  rw [Ideal.ofBits_zero_f32]

/-- The host's maximum against a broadcast zero constant is the rectifier. -/
theorem relu_host {s : Shape} (v : FVec Ideal s .f32) (hS : (⟨0, ![]⟩ : Shape).BroadcastsInDim s (![] : Fin 0 → Fin s.rank)) :
    maximumf v (broadcastInDim s ![] hS (constant (F := Ideal) ⟨0, ![]⟩ .f32 0x00000000#32)) = relu v := by
  funext j
  show max (v j) (Ideal.ofBits .f32 0x00000000#32) = max (v j) 0
  rw [Ideal.ofBits_zero_f32]

/-- The rectifier of an entry depends on that entry only. -/
theorem relu_congr {s s' : Shape} (v : s.Idx → EReal) (v' : s'.Idx → EReal) (j : s.Idx) (j' : s'.Idx) (h : v j = v' j') :
    relu v j = relu v' j' := by
  show max (v j) 0 = max (v' j') 0
  rw [h]

/-! ## The dense layer, its bias a [1, N] row -/

/-- A [1, N] row cast to its own shape and repeated down A rows reads, at (r, c), the row's entry c. -/
theorem row_repeated {A N : ℕ} {α : Type} (b : (⟨2, ![1, N]⟩ : Shape).Idx → α)
    (h1 : (⟨2, ![1, N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix2 (0 : Fin 1) (i 1 : Fin N)) := by
  rw [shapeCast_self]
  refine broadcastTo_apply b hb i (ix2 (0 : Fin 1) (i 1 : Fin N)) ?_
  intro a
  match a with
  | ⟨0, _⟩ => rfl
  | ⟨1, _⟩ =>
    show (i 1).val = if N = 1 then 0 else (i 1).val
    split
    · have := (i 1).isLt; have e : (i 1).val < N := this; omega
    · rfl

/-- The dense layer with the bias as a [1, N] row: entry (r, c) is the sum over k of x(r, k) * w(k, c), plus b(0, c). -/
def denseR (A K N : ℕ) (x : (⟨2, ![A, K]⟩ : Shape).Idx → EReal) (w : (⟨2, ![K, N]⟩ : Shape).Idx → EReal)
    (b : (⟨2, ![1, N]⟩ : Shape).Idx → EReal) : (⟨2, ![A, N]⟩ : Shape).Idx → EReal :=
  fun j => mm A K N x w j + b (ix2 (0 : Fin 1) (j 1 : Fin N))

/-- A kernel's dense layer on f32 operands: the product into a zero matrix plus the repeated bias row. -/
theorem denseR_kernel_f32 {A K N : ℕ} (x : FVec Ideal ⟨2, ![A, K]⟩ .f32) (w : FVec Ideal ⟨2, ![K, N]⟩ .f32)
    (b : FVec Ideal ⟨2, ![1, N]⟩ .f32)
    (h1 : (⟨2, ![1, N]⟩ : Shape).ShapeCasts ⟨2, ![1, N]⟩) (hb : (⟨2, ![1, N]⟩ : Shape).Broadcasts ⟨2, ![A, N]⟩) :
    addf (matmul (DotDims.plain A K N) none x w (constant ⟨2, ![A, N]⟩ .f32 0x00000000#32))
      (broadcastTo ⟨2, ![A, N]⟩ (shapeCast ⟨2, ![1, N]⟩ b h1) hb) = denseR A K N x w b := by
  funext j
  rw [addf_apply, row_repeated b h1 hb j, mm_kernel_f32]
  rfl

/-- A kernel's dense layer on bf16-narrowed operands: the same function. -/
theorem denseR_kernel_bf16 {A K N : ℕ} (x : FVec Ideal ⟨2, ![A, K]⟩ .f32) (w : FVec Ideal ⟨2, ![K, N]⟩ .f32)
    (b : FVec Ideal ⟨2, ![1, N]⟩ .f32) (hlt : FTy.bits .bf16 < FTy.bits .f32)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = denseR A K N x w b := by
  funext j
  rw [addf_apply, row_repeated b h1 hb j, mm_kernel_bf16]
  rfl

/-- Entry (p, q) of the dense layer depends on row p of the input, column q of the weights and entry q of the bias. -/
theorem denseR_congr {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (b : (⟨2, ![1, N]⟩ : Shape).Idx → EReal) (b' : (⟨2, ![1, N']⟩ : Shape).Idx → EReal)
    (p : Fin A) (p' : Fin A') (q : Fin N) (q' : Fin N')
    (hx : ∀ k : Fin K, x (ix2 p k) = x' (ix2 p' k)) (hw : ∀ k : Fin K, w (ix2 k q) = w' (ix2 k q'))
    (hb : b (ix2 (0 : Fin 1) q) = b' (ix2 (0 : Fin 1) q')) :
    denseR A K N x w b (ix2 p q) = denseR A' K N' x' w' b' (ix2 p' q') := by
  show mm A K N x w (ix2 p q) + b (ix2 (0 : Fin 1) q) = mm A' K N' x' w' (ix2 p' q') + b' (ix2 (0 : Fin 1) q')
  rw [mm_congr x x' w w' p p' q q' hx hw, hb]

/-- Against the dense layer whose bias is an [N] vector: the same entry when the row's entry is the vector's. -/
theorem denseR_eq_dense {A A' K N N' : ℕ} (x : (⟨2, ![A, K]⟩ : Shape).Idx → EReal) (x' : (⟨2, ![A', K]⟩ : Shape).Idx → EReal)
    (w : (⟨2, ![K, N]⟩ : Shape).Idx → EReal) (w' : (⟨2, ![K, N']⟩ : Shape).Idx → EReal)
    (b : (⟨2, ![1, N]⟩ : Shape).Idx → EReal) (b' : (⟨1, ![N']⟩ : Shape).Idx → EReal)
    (p : Fin A) (p' : Fin A') (q : Fin N) (q' : Fin N')
    (hx : ∀ k : Fin K, x (ix2 p k) = x' (ix2 p' k)) (hw : ∀ k : Fin K, w (ix2 k q) = w' (ix2 k q'))
    (hb : b (ix2 (0 : Fin 1) q) = b' (ix1 q')) :
    denseR A K N x w b (ix2 p q) = dense A' K N' x' w' b' (ix2 p' q') := by
  show mm A K N x w (ix2 p q) + b (ix2 (0 : Fin 1) q) = (∑ k : Fin K, x' (ix2 p' k) * w' (ix2 k q')) + b' (ix1 q')
  rw [mm_congr x x' w w' p p' q q' hx hw, hb]
  rfl

/-! ## The network -/

/-- The two-layer hypergraph convolution on n nodes with d input features, h hidden ones and c classes:
    out = G (relu (G (X W1 + b1)) W2 + b2). -/
def hgnn (n d h c : ℕ) (X : (⟨2, ![n, d]⟩ : Shape).Idx → EReal) (G : (⟨2, ![n, n]⟩ : Shape).Idx → EReal)
    (W1 : (⟨2, ![d, h]⟩ : Shape).Idx → EReal) (b1 : (⟨1, ![h]⟩ : Shape).Idx → EReal)
    (W2 : (⟨2, ![h, c]⟩ : Shape).Idx → EReal) (b2 : (⟨1, ![c]⟩ : Shape).Idx → EReal) : (⟨2, ![n, c]⟩ : Shape).Idx → EReal :=
  mm n n c G (dense n h c (relu (mm n n h G (dense n d h X W1 b1))) W2 b2)

end Cert.LibGraphLayers

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibColumnRead.lean ====
/-
  Two reads of a vector laid into a matrix, generic in the extents.

  A length-N vector broadcast to the column [N,1] and then along the lanes to [N,M] reads, at (p, k), the vector's
  entry p (the host's spelling of a per-row factor).  A length-N vector cast to the one row [1,N] reads, at (0, q),
  its entry q (the reshape under which a kernel receives a bias row).
-/
import Idealize.ShloMosaic.Lib.Pipeline.Value
import Idealize.ShloMosaic.Lib.ValueIdx

namespace Cert.LibColumnRead

open Idealize.ShloMosaic Idealize.ShloMosaic.ValueIdx

/-- A vector broadcast to a column and then along the lanes reads, at (p, k), the vector's entry p. -/
theorem col_bcast_apply {α : Type} {N M : ℕ} (n : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (p : Fin N) (k : Fin M) :
    broadcastInDim ⟨2, ![N, M]⟩ ![0, 1] h2 (broadcastInDim ⟨2, ![N, 1]⟩ ![0] h1 n) (ix2 p k) = n (ix1 p) := by
  refine (broadcastInDim_apply ![0, 1] h2 _ (ix2 p k) (ix2 p (0 : Fin 1)) ?_).trans ?_
  · intro a
    match a with
    | ⟨0, _⟩ =>
      show p.val = if N = 1 then 0 else p.val
      split
      · have := p.isLt; omega
      · rfl
    | ⟨1, _⟩ => rfl
  · refine broadcastInDim_apply ![0] h1 n (ix2 p (0 : Fin 1)) (ix1 p) ?_
    intro a
    match a with
    | ⟨0, _⟩ =>
      show p.val = if N = 1 then 0 else p.val
      split
      · have := p.isLt; omega
      · rfl

/-- A vector cast to one row reads, at (0, q), its entry q. -/
theorem row_cast_apply {α : Type} {N : ℕ} (b : (⟨1, ![N]⟩ : Shape).Idx → α)
    (h : (⟨1, ![N]⟩ : Shape).ShapeCasts ⟨2, ![1, N]⟩) (u : Fin 1) (q : Fin N) :
    shapeCast ⟨2, ![1, N]⟩ b h (ix2 u q) = b (ix1 q) :=
  shapeCast_apply b h (ix2 u q) (ix1 q) (by
    have hu : u.val = 0 := by omega
    rw [Shape.rowMajor_val_two, Shape.rowMajor_val_one]
    show q.val = u.val * N + q.val
    rw [hu]; omega)

end Cert.LibColumnRead
-- ==== Proof.LibEluLayer.lean ====
/-
  One layer of a mean-aggregation graph network, and the readout, as functions of indices on the
  extended reals, generic in the extents.

  A layer maps node features h : [A, K], neighbour sums ns : [A, K] and a factor d(r) per node to
      out(r, c) = leak( elu( Σ_k h(r,k)·ws(k,c)  +  Σ_k (ns(r,k)·d(r))·wn(k,c)  +  b(c) ) ).
  Entry (r, c) depends on row r of h and ns, on d(r), on column c of the two weight matrices and on
  b(c) only: that is what lets a program that computes a block of rows at a time be compared with one
  that works on whole arrays.

  The two programs spell elu differently.  One writes  x  where x > 0 and  exp x − 1  elsewhere; the
  other writes  x  where x > 0 and  1 · expm1(0 where x > 0, else x)  elsewhere.  On the extended reals
  expm1 y is exp y − 1 (at −∞ both are −1), the literal of 1.0 is the real one, and  1 · y = y  for every
  extended real y; so the two are one function (`eluR_eq_eluK`).  No finiteness is used anywhere.

  Here: the activation on one extended real and on vectors (block spelling), the affine part `lin`, the layer,
  its dependence on one row (`layer_row`), and the block program's spelling read to it (`klin_eq`, `kform_eq`).
  Imports the general files LibGraphLayers (which imports LibDense), LibLayout and LibColumnRead.
-/
import proofs.«118931_j30133490549162_2_alg».proof.Proof.LibGraphLayers
import proofs.«118931_j30133490549162_2_alg».proof.Proof.LibLayout
import proofs.«118931_j30133490549162_2_alg».proof.Proof.LibColumnRead
import Idealize.ShloMosaic.PureOps.IdealRules

noncomputable section

open scoped BigOperators

namespace Cert.Sage

open Idealize.ShloMosaic Idealize.ShloMosaic.ValueIdx Cert.LibDense Cert.LibGraphLayers Cert.LibLayout Cert.LibColumnRead

/-! ## The activation, on one extended real -/

/-- elu as the block program spells it: x where x > 0, else exp x − 1. -/
def eluK (x : Ideal .f32) : Ideal .f32 :=
  Scalar.select (FloatOps.cmpf .ogt x (Scalar.ofBits .f32 0x00000000#32)) x
    (FloatOps.subf (FloatOps.exp x) (Scalar.ofBits .f32 0x3F800000#32))

/-- elu as the whole-array program spells it: x where x > 0, else 1 · expm1 (0 where x > 0, else x). -/
def eluR (x : Ideal .f32) : Ideal .f32 :=
  Scalar.select (FloatOps.cmpf .ogt x (FloatOps.ofBits .f32 0x00000000#32)) x
    (FloatOps.mulf (FloatOps.ofBits .f32 0x3F800000#32)
      (FloatOps.hostUnary .expm1
        (Scalar.select (FloatOps.cmpf .ogt x (FloatOps.ofBits .f32 0x00000000#32)) (FloatOps.ofBits .f32 0x00000000#32) x)))

/-- leaky relu: x where x ≥ 0, else the literal slope times x. -/
def leak (x : Ideal .f32) : Ideal .f32 :=
  Scalar.select (FloatOps.cmpf .oge x (Scalar.ofBits .f32 0x00000000#32)) x
    (FloatOps.mulf (Scalar.ofBits .f32 0x3C23D70A#32) x)

/-- The literal of 1.0 is the real number one. -/
theorem one_lit : Ideal.ofBits .f32 0x3F800000#32 = 1 := IdealRules.sign_bit.ideal_onePat .f32

/-- The two spellings of elu are one function on the extended reals. -/
theorem eluR_eq_eluK (x : Ideal .f32) : eluR x = eluK x := by
  unfold eluR eluK
  by_cases h : FloatOps.cmpf (F := Ideal) (φ := .f32) .ogt x (FloatOps.ofBits .f32 0x00000000#32) = 1
  · have h' : FloatOps.cmpf (F := Ideal) (φ := .f32) .ogt x (Scalar.ofBits .f32 0x00000000#32) = 1 := h
    simp only [Scalar.select, h, h', if_true]
  · have h' : ¬ FloatOps.cmpf (F := Ideal) (φ := .f32) .ogt x (Scalar.ofBits .f32 0x00000000#32) = 1 := h
    simp only [Scalar.select, h, h', if_false]
    show Ideal.ofBits .f32 0x3F800000#32 * (Ideal.exp x - 1) = Ideal.exp x - Ideal.ofBits .f32 0x3F800000#32
    rw [one_lit, one_mul]

/-! ## A row repeated down the rows -/

/-- A [1, N] row repeated down A rows reads, at (p, c), the row's entry c. -/
theorem broadcastTo_1b_ab {α : Type} {A N : ℕ} (v : (⟨2, ![1, N]⟩ : Shape).Idx → α)
    (h : (⟨2, ![1, N]⟩ : Shape).Broadcasts ⟨2, ![A, N]⟩) (p : Fin A) (c : Fin N) :
    broadcastTo ⟨2, ![A, N]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if N = 1 then 0 else c.val
    split
    · have := c.isLt; omega
    · rfl

/-! ## The layer -/

/-- The affine part at an entry. -/
def lin (A K N : ℕ) (h ns : (⟨2, ![A, K]⟩ : Shape).Idx → EReal) (d : Fin A → EReal)
    (ws wn : (⟨2, ![K, N]⟩ : Shape).Idx → EReal) (b : Fin N → EReal) : (⟨2, ![A, N]⟩ : Shape).Idx → EReal :=
  fun j => (∑ k : Fin K, h (ix2 (j 0 : Fin A) k) * ws (ix2 k (j 1 : Fin N)))
    + (∑ k : Fin K, (ns (ix2 (j 0 : Fin A) k) * d (j 0 : Fin A)) * wn (ix2 k (j 1 : Fin N)))
    + b (j 1 : Fin N)

/-- The layer at an entry. -/
def layer (A K N : ℕ) (h ns : (⟨2, ![A, K]⟩ : Shape).Idx → EReal) (d : Fin A → EReal)
    (ws wn : (⟨2, ![K, N]⟩ : Shape).Idx → EReal) (b : Fin N → EReal) : (⟨2, ![A, N]⟩ : Shape).Idx → EReal :=
  fun j => leak (eluK (lin A K N h ns d ws wn b j))

/-- An entry of the layer depends on one row of the features and of the neighbour sums and on that row's factor. -/
theorem layer_row {A A' K N : ℕ} (h ns : (⟨2, ![A, K]⟩ : Shape).Idx → EReal) (h' ns' : (⟨2, ![A', K]⟩ : Shape).Idx → EReal)
    (d : Fin A → EReal) (d' : Fin A' → EReal) (ws wn ws' wn' : (⟨2, ![K, N]⟩ : Shape).Idx → EReal) (b b' : Fin N → EReal)
    (p : Fin A) (r : Fin A') (q : Fin N)
    (hh : ∀ k : Fin K, h (ix2 p k) = h' (ix2 r k)) (hn : ∀ k : Fin K, ns (ix2 p k) = ns' (ix2 r k)) (hd : d p = d' r)
    (hws : ∀ k : Fin K, ws (ix2 k q) = ws' (ix2 k q)) (hwn : ∀ k : Fin K, wn (ix2 k q) = wn' (ix2 k q)) (hb : b q = b' q) :
    layer A K N h ns d ws wn b (ix2 p q) = layer A' K N h' ns' d' ws' wn' b' (ix2 r q) := by
  show leak (eluK ((∑ k : Fin K, h (ix2 p k) * ws (ix2 k q)) + (∑ k : Fin K, (ns (ix2 p k) * d p) * wn (ix2 k q)) + b q))
    = leak (eluK ((∑ k : Fin K, h' (ix2 r k) * ws' (ix2 k q)) + (∑ k : Fin K, (ns' (ix2 r k) * d' r) * wn' (ix2 k q)) + b' q))
  have e1 : (∑ k : Fin K, h (ix2 p k) * ws (ix2 k q)) = ∑ k : Fin K, h' (ix2 r k) * ws' (ix2 k q) :=
    Finset.sum_congr rfl fun k _ => by rw [hh k, hws k]
  have e2 : (∑ k : Fin K, (ns (ix2 p k) * d p) * wn (ix2 k q)) = ∑ k : Fin K, (ns' (ix2 r k) * d' r) * wn' (ix2 k q) :=
    Finset.sum_congr rfl fun k _ => by rw [hn k, hd, hwn k]
  rw [e1, e2, hb]

/-! ## The activation on whole vectors, in the block program's spelling -/

/-- elu on a vector, the block program's spelling. -/
def eluV {s : Shape} (L : FVec Ideal s .f32) : FVec Ideal s .f32 :=
  select (cmpf .ogt L (broadcast s (Scalar.ofBits .f32 0x00000000#32))) L
    (subf (exp L) (broadcast s (Scalar.ofBits .f32 0x3F800000#32)))

/-- leaky relu on a vector, the block program's spelling. -/
def leakV {s : Shape} (E : FVec Ideal s .f32) : FVec Ideal s .f32 :=
  select (cmpf .oge E (broadcast s (Scalar.ofBits .f32 0x00000000#32))) E
    (mulf (broadcast s (Scalar.ofBits .f32 0x3C23D70A#32)) E)

theorem eluV_apply {s : Shape} (L : FVec Ideal s .f32) (j : s.Idx) : eluV L j = eluK (L j) := rfl
theorem leakV_apply {s : Shape} (E : FVec Ideal s .f32) (j : s.Idx) : leakV E j = leak (E j) := rfl

/-- The block program's affine part: two products into zero matrices, the neighbour sums scaled by the factor
    column repeated along the lanes, the bias row repeated down the rows. -/
def klin {A K N : ℕ} (x0 x1 : FVec Ideal ⟨2, ![A, K]⟩ .f32) (x2 : FVec Ideal ⟨2, ![A, 1]⟩ .f32)
    (x3 x4 : FVec Ideal ⟨2, ![K, N]⟩ .f32) (x5 : FVec Ideal ⟨2, ![1, N]⟩ .f32)
    (hc : (⟨2, ![A, 1]⟩ : Shape).Broadcasts ⟨2, ![A, K]⟩) (hr : (⟨2, ![1, N]⟩ : Shape).Broadcasts ⟨2, ![A, N]⟩) :
    FVec Ideal ⟨2, ![A, N]⟩ .f32 :=
  addf
    (addf (matmul (DotDims.plain A K N) none x0 x3 (constant ⟨2, ![A, N]⟩ .f32 0x00000000#32))
      (matmul (DotDims.plain A K N) none (mulf x1 (broadcastTo ⟨2, ![A, K]⟩ x2 hc)) x4 (constant ⟨2, ![A, N]⟩ .f32 0x00000000#32)))
    (broadcastTo ⟨2, ![A, N]⟩ x5 hr)

/-- The block program's affine part is `lin`. -/
theorem klin_eq {A K N : ℕ} (x0 x1 : FVec Ideal ⟨2, ![A, K]⟩ .f32) (x2 : FVec Ideal ⟨2, ![A, 1]⟩ .f32)
    (x3 x4 : FVec Ideal ⟨2, ![K, N]⟩ .f32) (x5 : FVec Ideal ⟨2, ![1, N]⟩ .f32)
    (hc : (⟨2, ![A, 1]⟩ : Shape).Broadcasts ⟨2, ![A, K]⟩) (hr : (⟨2, ![1, N]⟩ : Shape).Broadcasts ⟨2, ![A, N]⟩) :
    klin x0 x1 x2 x3 x4 x5 hc hr
      = lin A K N x0 x1 (fun p => x2 (ix2 p (0 : Fin 1))) x3 x4 (fun q => x5 (ix2 (0 : Fin 1) q)) := by
  unfold klin
  rw [mm_kernel_f32 x0 x3, mm_kernel_f32 (mulf x1 (broadcastTo ⟨2, ![A, K]⟩ x2 hc)) x4]
  funext j
  obtain ⟨p, q, rfl⟩ : ∃ (p : Fin A) (q : Fin N), j = ix2 p q := ⟨j 0, j 1, eq_ix2 j⟩
  rw [addf_apply, addf_apply, broadcastTo_1b_ab x5 hr p q]
  have e3 : mm A K N (mulf x1 (broadcastTo ⟨2, ![A, K]⟩ x2 hc)) x4 (ix2 p q)
      = ∑ k : Fin K, (x1 (ix2 p k) * x2 (ix2 p (0 : Fin 1))) * x4 (ix2 k q) :=
    Finset.sum_congr rfl fun k _ => by
      show (mulf x1 (broadcastTo ⟨2, ![A, K]⟩ x2 hc)) (ix2 p k) * x4 (ix2 k q) = _
      rw [mulf_apply, broadcastTo_a1_ab_apply x2 hc p k]
  rw [e3]
  rfl

/-- The block program's spelling of the layer. -/
def kform {A K N : ℕ} (x0 x1 : FVec Ideal ⟨2, ![A, K]⟩ .f32) (x2 : FVec Ideal ⟨2, ![A, 1]⟩ .f32)
    (x3 x4 : FVec Ideal ⟨2, ![K, N]⟩ .f32) (x5 : FVec Ideal ⟨2, ![1, N]⟩ .f32)
    (hc : (⟨2, ![A, 1]⟩ : Shape).Broadcasts ⟨2, ![A, K]⟩) (hr : (⟨2, ![1, N]⟩ : Shape).Broadcasts ⟨2, ![A, N]⟩) :
    FVec Ideal ⟨2, ![A, N]⟩ .f32 :=
  leakV (eluV (klin x0 x1 x2 x3 x4 x5 hc hr))

/-- The block program's spelling is the layer. -/
theorem kform_eq {A K N : ℕ} (x0 x1 : FVec Ideal ⟨2, ![A, K]⟩ .f32) (x2 : FVec Ideal ⟨2, ![A, 1]⟩ .f32)
    (x3 x4 : FVec Ideal ⟨2, ![K, N]⟩ .f32) (x5 : FVec Ideal ⟨2, ![1, N]⟩ .f32)
    (hc : (⟨2, ![A, 1]⟩ : Shape).Broadcasts ⟨2, ![A, K]⟩) (hr : (⟨2, ![1, N]⟩ : Shape).Broadcasts ⟨2, ![A, N]⟩) :
    kform x0 x1 x2 x3 x4 x5 hc hr
      = layer A K N x0 x1 (fun p => x2 (ix2 p (0 : Fin 1))) x3 x4 (fun q => x5 (ix2 (0 : Fin 1) q)) := by
  unfold kform
  rw [klin_eq]
  rfl

end Cert.Sage

end
-- ==== Proof.Region0.lean ====
/-
  Region 0 of the idealized kernel program: one layer computed a block of 10000 node rows at a time.

  The region's output array ends holding the layer of the WHOLE input arrays as the region finds them:
  point t of the grid reads rows 10000·t … 10000·t + 9999 of the node features, of the neighbour sums and
  of the factor column, and the whole weight matrices and bias row; an entry of the layer depends on its
  own row of the first three only, so what point t writes back is block t of the whole-array layer; the
  ten blocks cover the array (row r lies in block r / 10000).
-/
import proofs.«118931_j30133490549162_2_alg».proof.Proof.Gen.KernelIdeal.Frame
import proofs.«118931_j30133490549162_2_alg».proof.Proof.LibEluLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (x0 x1 : Vec Ideal S10000x128 .f32) (x2 : Vec Ideal S10000x1 .f32) (x3 x4 : Vec Ideal S128x128 .f32)
    (x5 : Vec Ideal S1x128 .f32) :
    k0_pay1 x0 x1 x2 x3 x4 x5
      = Cert.Sage.layer 10000 128 128 x0 x1 (fun p => x2 (ix2 p (0 : Fin 1))) x3 x4 (fun q => x5 (ix2 (0 : Fin 1) q)) := by
  unfold k0_pay1
  simp only [shapeCast_self]
  exact Cert.Sage.kform_eq x0 x1 x2 x3 x4 x5 _ _

/-- The whole-array layer of the arrays the region finds. -/
abbrev G (c : Dev nD) : S100000x128.Idx → EReal :=
  Cert.Sage.layer 100000 128 128 (V c main_arg0 : S100000x128.Idx → EReal) (V c main_v24 : S100000x128.Idx → EReal)
    (fun r => (V c main_v8 : S100000x1.Idx → EReal) (ix2 r (0 : Fin 1)))
    (V c main_v9 : S128x128.Idx → EReal) (V c main_v10 : S128x128.Idx → EReal)
    (fun q => (V c main_v25 : S1x128.Idx → EReal) (ix2 (0 : Fin 1) q))

/-- The printed index maps, decided over the grid: the three row windows and the output sit at block (t, 0),
    the weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- Block t of the node features is rows 10000·t … of the array. -/
theorem blk0_read (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → EReal) (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- Block t of the neighbour sums is rows 10000·t … of the array. -/
theorem blk1_read (c : Dev nD) (t : Fin cfg0.N) (p : Fin 10000) (k : Fin 128) (r : Fin 100000)
    (hr : r.val = t.val * 10000 + p.val) :
    (iblk0 V c 1 t : Vec Ideal S10000x128 .f32) (ix2 p k) = (V c main_v24 : S100000x128.Idx → EReal) (ix2 r k) := by
  obtain ⟨-, -, e0, e1, -⟩ := idx_facts t
  unfold iblk0
  rw [View.read_apply]
  show V c main_v24 _ = V c main_v24 _
  refine congrArg (V c main_v24) ?_
  funext a
  apply Fin.ext
  match a with
  | ⟨0, _⟩ => show win0_1.index t (0 : Fin 2) * 10000 + 1 * p.val = r.val; rw [e0, hr]; omega
  | ⟨1, _⟩ => show win0_1.index t (1 : Fin 2) * 128 + 1 * k.val = k.val; rw [e1]; omega

/-- Block t of the factor column is rows 10000·t … of the column. -/
theorem blk2_read (c : Dev nD) (t : Fin cfg0.N) (p : Fin 10000) (r : Fin 100000)
    (hr : r.val = t.val * 10000 + p.val) :
    (iblk0 V c 2 t : Vec Ideal S10000x1 .f32) (ix2 p (0 : Fin 1)) = (V c main_v8 : S100000x1.Idx → EReal) (ix2 r (0 : Fin 1)) := by
  obtain ⟨-, -, -, -, e0, e1, -⟩ := idx_facts t
  unfold iblk0
  rw [View.read_apply]
  show V c main_v8 _ = V c main_v8 _
  refine congrArg (V c main_v8) ?_
  funext a
  apply Fin.ext
  match a with
  | ⟨0, _⟩ => show win0_2.index t (0 : Fin 2) * 10000 + 1 * p.val = r.val; rw [e0, hr]; omega
  | ⟨1, _⟩ => show win0_2.index t (1 : Fin 2) * 1 + 1 * 0 = 0; rw [e1]

/-- The self weights' one block is the whole matrix. -/
theorem blk3_read (c : Dev nD) (t : Fin cfg0.N) (k : Fin 128) (q : Fin 128) :
    (iblk0 V c 3 t : Vec Ideal S128x128 .f32) (ix2 k q) = (V c main_v9 : S128x128.Idx → EReal) (ix2 k q) := by
  obtain ⟨-, -, -, -, -, -, e0, e1, -⟩ := idx_facts t
  unfold iblk0
  rw [View.read_apply]
  show V c main_v9 _ = V c main_v9 _
  refine congrArg (V c main_v9) ?_
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The neighbour weights' one block is the whole matrix. -/
theorem blk4_read (c : Dev nD) (t : Fin cfg0.N) (k : Fin 128) (q : Fin 128) :
    (iblk0 V c 4 t : Vec Ideal S128x128 .f32) (ix2 k q) = (V c main_v10 : S128x128.Idx → EReal) (ix2 k q) := by
  obtain ⟨-, -, -, -, -, -, -, -, e0, e1, -⟩ := idx_facts t
  unfold iblk0
  rw [View.read_apply]
  show V c main_v10 _ = V c main_v10 _
  refine congrArg (V c main_v10) ?_
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias row's one block is the whole row. -/
theorem blk5_read (c : Dev nD) (t : Fin cfg0.N) (q : Fin 128) :
    (iblk0 V c 5 t : Vec Ideal S1x128 .f32) (ix2 (0 : Fin 1) q) = (V c main_v25 : S1x128.Idx → EReal) (ix2 (0 : Fin 1) q) := by
  obtain ⟨-, -, -, -, -, -, -, -, -, -, e0, e1, -⟩ := idx_facts t
  unfold iblk0
  rw [View.read_apply]
  show V c main_v25 _ = V c main_v25 _
  refine congrArg (V c main_v25) ?_
  funext a
  apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-- What point t writes back is block t of the whole-array layer. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  rw [pay_eq]
  obtain ⟨-, -, -, -, -, -, -, -, -, -, -, -, e0, e1, ht⟩ := idx_facts t
  funext y
  obtain ⟨p, q, rfl⟩ : ∃ (p : Fin 10000) (q : Fin 128), y = ix2 p q := ⟨y 0, y 1, eq_ix2 y⟩
  have hp : p.val < 10000 := p.isLt
  let r : Fin 100000 := ⟨t.val * 10000 + p.val, by omega⟩
  have hemb : ((cfg0.win 6).blk t).view.emb (ix2 p q) = (ix2 r q : S100000x128.Idx) := by
    funext a
    apply Fin.ext
    match a with
    | ⟨0, _⟩ => show win0_6.index t (0 : Fin 2) * 10000 + 1 * p.val = t.val * 10000 + p.val; rw [e0]; omega
    | ⟨1, _⟩ => show win0_6.index t (1 : Fin 2) * 128 + 1 * q.val = q.val; rw [e1]; omega
  show Cert.Sage.layer 10000 128 128 _ _ _ _ _ _ (ix2 p q) = G V c (((cfg0.win 6).blk t).view.emb (ix2 p q))
  rw [hemb]
  exact Cert.Sage.layer_row _ _ _ _ _ _ _ _ _ _ _ _ p r q
    (fun k => blk0_read V c t p k r rfl) (fun k => blk1_read V c t p k r rfl) (blk2_read V c t p r rfl)
    (fun k => blk3_read V c t k q) (fun k => blk4_read V c t k q) (blk5_read V c t q)

/-- An index of the array is in point t's block iff each coordinate is in the block's range on its axis. -/
theorem mem_blk (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v26).slice (win0_6.rect t)).set ↔ _
  rw [View.set_slice_whole, Rect.mem_set_unit]
  exact Iff.rfl

/-- The blocks cover the array: row r lies in block r / 10000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, -, -, -, -, -, -, -, -, e0, e1, -⟩ := idx_facts t
  refine ⟨t, flush0_6 t, ?_⟩
  rw [mem_blk]
  intro a
  have ht : t.val = (i 0).val / 10000 := rfl
  match a with
  | ⟨0, _⟩ => show win0_6.index t (0 : Fin 2) * 10000 ≤ (i 0).val ∧ (i 0).val < win0_6.index t (0 : Fin 2) * 10000 + 10000; rw [e0, ht]; omega
  | ⟨1, _⟩ => show win0_6.index t (1 : Fin 2) * 128 ≤ (i 1).val ∧ (i 1).val < win0_6.index t (1 : Fin 2) * 128 + 128; rw [e1]; omega

/-- THE ARRAY after the region: the whole-array layer of the arrays the region finds. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  Region 1 of the idealized kernel program: one layer computed a block of 10000 node rows at a time.

  The region's output array ends holding the layer of the WHOLE input arrays as the region finds them:
  point t of the grid reads rows 10000·t … 10000·t + 9999 of the node features, of the neighbour sums and
  of the factor column, and the whole weight matrices and bias row; an entry of the layer depends on its
  own row of the first three only, so what point t writes back is block t of the whole-array layer; the
  ten blocks cover the array (row r lies in block r / 10000).
-/
import proofs.«118931_j30133490549162_2_alg».proof.Proof.Gen.KernelIdeal.Frame
import proofs.«118931_j30133490549162_2_alg».proof.Proof.LibEluLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (x0 x1 : Vec Ideal S10000x128 .f32) (x2 : Vec Ideal S10000x1 .f32) (x3 x4 : Vec Ideal S128x128 .f32)
    (x5 : Vec Ideal S1x128 .f32) :
    k1_pay1 x0 x1 x2 x3 x4 x5
      = Cert.Sage.layer 10000 128 128 x0 x1 (fun p => x2 (ix2 p (0 : Fin 1))) x3 x4 (fun q => x5 (ix2 (0 : Fin 1) q)) := by
  unfold k1_pay1
  simp only [shapeCast_self]
  exact Cert.Sage.kform_eq x0 x1 x2 x3 x4 x5 _ _

/-- The whole-array layer of the arrays the region finds. -/
abbrev G (c : Dev nD) : S100000x128.Idx → EReal :=
  Cert.Sage.layer 100000 128 128 (V c main_v26 : S100000x128.Idx → EReal) (V c main_v38 : S100000x128.Idx → EReal)
    (fun r => (V c main_v8 : S100000x1.Idx → EReal) (ix2 r (0 : Fin 1)))
    (V c main_v11 : S128x128.Idx → EReal) (V c main_v12 : S128x128.Idx → EReal)
    (fun q => (V c main_v39 : S1x128.Idx → EReal) (ix2 (0 : Fin 1) q))

/-- The printed index maps, decided over the grid: the three row windows and the output sit at block (t, 0),
    the weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- Block t of the node features is rows 10000·t … of the array. -/
theorem blk0_read (c : Dev nD) (t : Fin cfg1.N) (p : Fin 10000) (k : Fin 128) (r : Fin 100000)
    (hr : r.val = t.val * 10000 + p.val) :
    (iblk1 V c 0 t : Vec Ideal S10000x128 .f32) (ix2 p k) = (V c main_v26 : S100000x128.Idx → EReal) (ix2 r k) := by
  obtain ⟨e0, e1, -⟩ := idx_facts t
  unfold iblk1
  rw [View.read_apply]
  show V c main_v26 _ = V c main_v26 _
  refine congrArg (V c main_v26) ?_
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Block t of the neighbour sums is rows 10000·t … of the array. -/
theorem blk1_read (c : Dev nD) (t : Fin cfg1.N) (p : Fin 10000) (k : Fin 128) (r : Fin 100000)
    (hr : r.val = t.val * 10000 + p.val) :
    (iblk1 V c 1 t : Vec Ideal S10000x128 .f32) (ix2 p k) = (V c main_v38 : S100000x128.Idx → EReal) (ix2 r k) := by
  obtain ⟨-, -, e0, e1, -⟩ := idx_facts t
  unfold iblk1
  rw [View.read_apply]
  show V c main_v38 _ = V c main_v38 _
  refine congrArg (V c main_v38) ?_
  funext a
  apply Fin.ext
  match a with
  | ⟨0, _⟩ => show win1_1.index t (0 : Fin 2) * 10000 + 1 * p.val = r.val; rw [e0, hr]; omega
  | ⟨1, _⟩ => show win1_1.index t (1 : Fin 2) * 128 + 1 * k.val = k.val; rw [e1]; omega

/-- Block t of the factor column is rows 10000·t … of the column. -/
theorem blk2_read (c : Dev nD) (t : Fin cfg1.N) (p : Fin 10000) (r : Fin 100000)
    (hr : r.val = t.val * 10000 + p.val) :
    (iblk1 V c 2 t : Vec Ideal S10000x1 .f32) (ix2 p (0 : Fin 1)) = (V c main_v8 : S100000x1.Idx → EReal) (ix2 r (0 : Fin 1)) := by
  obtain ⟨-, -, -, -, e0, e1, -⟩ := idx_facts t
  unfold iblk1
  rw [View.read_apply]
  show V c main_v8 _ = V c main_v8 _
  refine congrArg (V c main_v8) ?_
  funext a
  apply Fin.ext
  match a with
  | ⟨0, _⟩ => show win1_2.index t (0 : Fin 2) * 10000 + 1 * p.val = r.val; rw [e0, hr]; omega
  | ⟨1, _⟩ => show win1_2.index t (1 : Fin 2) * 1 + 1 * 0 = 0; rw [e1]

/-- The self weights' one block is the whole matrix. -/
theorem blk3_read (c : Dev nD) (t : Fin cfg1.N) (k : Fin 128) (q : Fin 128) :
    (iblk1 V c 3 t : Vec Ideal S128x128 .f32) (ix2 k q) = (V c main_v11 : S128x128.Idx → EReal) (ix2 k q) := by
  obtain ⟨-, -, -, -, -, -, e0, e1, -⟩ := idx_facts t
  unfold iblk1
  rw [View.read_apply]
  show V c main_v11 _ = V c main_v11 _
  refine congrArg (V c main_v11) ?_
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The neighbour weights' one block is the whole matrix. -/
theorem blk4_read (c : Dev nD) (t : Fin cfg1.N) (k : Fin 128) (q : Fin 128) :
    (iblk1 V c 4 t : Vec Ideal S128x128 .f32) (ix2 k q) = (V c main_v12 : S128x128.Idx → EReal) (ix2 k q) := by
  obtain ⟨-, -, -, -, -, -, -, -, e0, e1, -⟩ := idx_facts t
  unfold iblk1
  rw [View.read_apply]
  show V c main_v12 _ = V c main_v12 _
  refine congrArg (V c main_v12) ?_
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias row's one block is the whole row. -/
theorem blk5_read (c : Dev nD) (t : Fin cfg1.N) (q : Fin 128) :
    (iblk1 V c 5 t : Vec Ideal S1x128 .f32) (ix2 (0 : Fin 1) q) = (V c main_v39 : S1x128.Idx → EReal) (ix2 (0 : Fin 1) q) := by
  obtain ⟨-, -, -, -, -, -, -, -, -, -, e0, e1, -⟩ := idx_facts t
  unfold iblk1
  rw [View.read_apply]
  show V c main_v39 _ = V c main_v39 _
  refine congrArg (V c main_v39) ?_
  funext a
  apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- What point t writes back is block t of the whole-array layer. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  rw [pay_eq]
  obtain ⟨-, -, -, -, -, -, -, -, -, -, -, -, e0, e1, ht⟩ := idx_facts t
  funext y
  obtain ⟨p, q, rfl⟩ : ∃ (p : Fin 10000) (q : Fin 128), y = ix2 p q := ⟨y 0, y 1, eq_ix2 y⟩
  have hp : p.val < 10000 := p.isLt
  let r : Fin 100000 := ⟨t.val * 10000 + p.val, by omega⟩
  have hemb : ((cfg1.win 6).blk t).view.emb (ix2 p q) = (ix2 r q : S100000x128.Idx) := by
    funext a
    apply Fin.ext
    match a with
    | ⟨0, _⟩ => show win1_6.index t (0 : Fin 2) * 10000 + 1 * p.val = t.val * 10000 + p.val; rw [e0]; omega
    | ⟨1, _⟩ => show win1_6.index t (1 : Fin 2) * 128 + 1 * q.val = q.val; rw [e1]; omega
  show Cert.Sage.layer 10000 128 128 _ _ _ _ _ _ (ix2 p q) = G V c (((cfg1.win 6).blk t).view.emb (ix2 p q))
  rw [hemb]
  exact Cert.Sage.layer_row _ _ _ _ _ _ _ _ _ _ _ _ p r q
    (fun k => blk0_read V c t p k r rfl) (fun k => blk1_read V c t p k r rfl) (blk2_read V c t p r rfl)
    (fun k => blk3_read V c t k q) (fun k => blk4_read V c t k q) (blk5_read V c t q)

/-- An index of the array is in point t's block iff each coordinate is in the block's range on its axis. -/
theorem mem_blk (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v40).slice (win1_6.rect t)).set ↔ _
  rw [View.set_slice_whole, Rect.mem_set_unit]
  exact Iff.rfl

/-- The blocks cover the array: row r lies in block r / 10000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, -, -, -, -, -, -, -, -, e0, e1, -⟩ := idx_facts t
  refine ⟨t, flush1_6 t, ?_⟩
  rw [mem_blk]
  intro a
  have ht : t.val = (i 0).val / 10000 := rfl
  match a with
  | ⟨0, _⟩ => show win1_6.index t (0 : Fin 2) * 10000 ≤ (i 0).val ∧ (i 0).val < win1_6.index t (0 : Fin 2) * 10000 + 10000; rw [e0, ht]; omega
  | ⟨1, _⟩ => show win1_6.index t (1 : Fin 2) * 128 ≤ (i 1).val ∧ (i 1).val < win1_6.index t (1 : Fin 2) * 128 + 128; rw [e1]; omega

/-- THE ARRAY after the region: the whole-array layer of the arrays the region finds. -/
theorem final (c : Dev nD) : (dat1 V c).arrAt 6 cfg1.N = G V c :=
  (dat1 V c).arrAt_eq_of_cover 6 (G V c) (fun t _ => flushed_eq V c t) cover

end Cert.KernelIdeal.Region1

end
-- ==== Proof.LibEluLayerHost.lean ====
/-
  The whole-array program's spelling of the layer, and the readout in both spellings, on the extended reals,
  generic in the extents.

  The whole-array program writes the layer with the host's general dot products, the per-node factor as a
  length-A vector broadcast to a column and along the lanes, the bias as a length-N vector broadcast to a
  row and down the rows, zero, one and the slope as broadcast scalar constants, and elu through expm1.  All
  of it reads, entry by entry, as the same `layer` the block program computes.

  The readout is  out(g, c) = Σ_k leak( Σ_k' hg(g,k')·w1(k',k) + b1(k) ) · w2(k,c) + b2(c).

  Here: elu through expm1 and leaky relu with broadcast scalar constants, equal to the block spellings
  (`eluHV_eq`, `leakHV_eq`); the host's affine part and layer read to `lin` and `layer` (`hlin_eq`, `hform_eq`);
  the readout and its two spellings (`kread_eq`, `hread_eq`).  Imports the general file LibEluLayer.
-/
import proofs.«118931_j30133490549162_2_alg».proof.Proof.LibEluLayer

noncomputable section

open scoped BigOperators

namespace Cert.Sage

open Idealize.ShloMosaic Idealize.ShloMosaic.ValueIdx Cert.LibDense Cert.LibGraphLayers Cert.LibLayout Cert.LibColumnRead

/-! ## The activation on whole vectors, in the whole-array program's spelling -/

/-- elu on a vector through expm1, the constants broadcast scalars. -/
def eluHV {s : Shape} (hS : (⟨0, ![]⟩ : Shape).BroadcastsInDim s (![] : Fin 0 → Fin s.rank)) (L : FVec Ideal s .f32) :
    FVec Ideal s .f32 :=
  select (cmpf .ogt L (broadcastInDim s ![] hS (constant (F := Ideal) ⟨0, ![]⟩ .f32 0x00000000#32))) L
    (mulf (broadcastInDim s ![] hS (constant (F := Ideal) ⟨0, ![]⟩ .f32 0x3F800000#32))
      (Host.expm1
        (select (cmpf .ogt L (broadcastInDim s ![] hS (constant (F := Ideal) ⟨0, ![]⟩ .f32 0x00000000#32)))
          (broadcastInDim s ![] hS (id (constant (F := Ideal) ⟨0, ![]⟩ .f32 0x00000000#32))) L)))

/-- leaky relu on a vector, the constants broadcast scalars. -/
def leakHV {s : Shape} (hS : (⟨0, ![]⟩ : Shape).BroadcastsInDim s (![] : Fin 0 → Fin s.rank)) (E : FVec Ideal s .f32) :
    FVec Ideal s .f32 :=
  select (cmpf .oge E (broadcastInDim s ![] hS (constant (F := Ideal) ⟨0, ![]⟩ .f32 0x00000000#32))) E
    (mulf (broadcastInDim s ![] hS (constant (F := Ideal) ⟨0, ![]⟩ .f32 0x3C23D70A#32)) E)

theorem eluHV_apply {s : Shape} (hS : (⟨0, ![]⟩ : Shape).BroadcastsInDim s (![] : Fin 0 → Fin s.rank))
    (L : FVec Ideal s .f32) (j : s.Idx) : eluHV hS L j = eluR (L j) := rfl

/-- The two spellings of elu agree on every vector. -/
theorem eluHV_eq {s : Shape} (hS : (⟨0, ![]⟩ : Shape).BroadcastsInDim s (![] : Fin 0 → Fin s.rank))
    (L : FVec Ideal s .f32) : eluHV hS L = eluV L :=
  funext fun j => (eluHV_apply hS L j).trans ((eluR_eq_eluK (L j)).trans (eluV_apply L j).symm)

/-- The two spellings of leaky relu agree on every vector. -/
theorem leakHV_eq {s : Shape} (hS : (⟨0, ![]⟩ : Shape).BroadcastsInDim s (![] : Fin 0 → Fin s.rank))
    (E : FVec Ideal s .f32) : leakHV hS E = leakV E := rfl

/-! ## The layer, the whole-array program's spelling -/

/-- The affine part with the host's dot products and broadcasts. -/
def hlin {A K N : ℕ} (h ns : FVec Ideal ⟨2, ![A, K]⟩ .f32) (d : FVec Ideal ⟨1, ![A]⟩ .f32)
    (ws wn : FVec Ideal ⟨2, ![K, N]⟩ .f32) (b : FVec Ideal ⟨1, ![N]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hd : (⟨1, ![N]⟩ : Shape).BroadcastsInDim ⟨2, ![1, N]⟩ ![1])
    (hbc : (⟨2, ![1, N]⟩ : Shape).BroadcastsInDim ⟨2, ![A, N]⟩ ![0, 1]) : FVec Ideal ⟨2, ![A, N]⟩ .f32 :=
  addf
    (addf (Host.dotGeneral (DotDims.plain A K N) none h ws)
      (Host.dotGeneral (DotDims.plain A K N) none
        (mulf ns (broadcastInDim ⟨2, ![A, K]⟩ ![0, 1] h2 (broadcastInDim ⟨2, ![A, 1]⟩ ![0] h1 d))) wn))
    (broadcastInDim ⟨2, ![A, N]⟩ ![0, 1] hbc (broadcastInDim ⟨2, ![1, N]⟩ ![1] hd b))

/-- The host's affine part is `lin`. -/
theorem hlin_eq {A K N : ℕ} (h ns : FVec Ideal ⟨2, ![A, K]⟩ .f32) (d : FVec Ideal ⟨1, ![A]⟩ .f32)
    (ws wn : FVec Ideal ⟨2, ![K, N]⟩ .f32) (b : FVec Ideal ⟨1, ![N]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hd : (⟨1, ![N]⟩ : Shape).BroadcastsInDim ⟨2, ![1, N]⟩ ![1])
    (hbc : (⟨2, ![1, N]⟩ : Shape).BroadcastsInDim ⟨2, ![A, N]⟩ ![0, 1]) :
    hlin h ns d ws wn b h1 h2 hd hbc = lin A K N h ns (fun r => d (ix1 r)) ws wn (fun q => b (ix1 q)) := by
  unfold hlin
  rw [mm_host h ws, mm_host (mulf ns (broadcastInDim ⟨2, ![A, K]⟩ ![0, 1] h2 (broadcastInDim ⟨2, ![A, 1]⟩ ![0] h1 d))) wn]
  funext j
  obtain ⟨p, q, rfl⟩ : ∃ (p : Fin A) (q : Fin N), j = ix2 p q := ⟨j 0, j 1, eq_ix2 j⟩
  rw [addf_apply, addf_apply, bias_rows_host_ix b hd hbc p q]
  have e3 : mm A K N (mulf ns (broadcastInDim ⟨2, ![A, K]⟩ ![0, 1] h2 (broadcastInDim ⟨2, ![A, 1]⟩ ![0] h1 d))) wn (ix2 p q)
      = ∑ k : Fin K, (ns (ix2 p k) * d (ix1 p)) * wn (ix2 k q) :=
    Finset.sum_congr rfl fun k _ => by
      show (mulf ns (broadcastInDim ⟨2, ![A, K]⟩ ![0, 1] h2 (broadcastInDim ⟨2, ![A, 1]⟩ ![0] h1 d))) (ix2 p k) * wn (ix2 k q) = _
      rw [mulf_apply, col_bcast_apply d h1 h2 p k]
  rw [e3]
  rfl

/-- The whole-array program's spelling of the layer. -/
def hform {A K N : ℕ} (h ns : FVec Ideal ⟨2, ![A, K]⟩ .f32) (d : FVec Ideal ⟨1, ![A]⟩ .f32)
    (ws wn : FVec Ideal ⟨2, ![K, N]⟩ .f32) (b : FVec Ideal ⟨1, ![N]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) : FVec Ideal ⟨2, ![A, N]⟩ .f32 :=
  leakHV hS (eluHV hS (hlin h ns d ws wn b h1 h2 hd hbc))

/-- The whole-array program's spelling is the layer. -/
theorem hform_eq {A K N : ℕ} (h ns : FVec Ideal ⟨2, ![A, K]⟩ .f32) (d : FVec Ideal ⟨1, ![A]⟩ .f32)
    (ws wn : FVec Ideal ⟨2, ![K, N]⟩ .f32) (b : FVec Ideal ⟨1, ![N]⟩ .f32)
    (h1 : (⟨1, ![A]⟩ : Shape).BroadcastsInDim ⟨2, ![A, 1]⟩ ![0])
    (h2 : (⟨2, ![A, 1]⟩ : Shape).BroadcastsInDim ⟨2, ![A, K]⟩ ![0, 1])
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    hform h ns d ws wn b h1 h2 hd hbc hS = layer A K N h ns (fun r => d (ix1 r)) ws wn (fun q => b (ix1 q)) := by
  unfold hform
  rw [hlin_eq, eluHV_eq, leakHV_eq]
  rfl

/-! ## The readout -/

/-- The readout at an entry. -/
def readout (G H H' C : ℕ) (hg : (⟨2, ![G, H]⟩ : Shape).Idx → EReal) (w1 : (⟨2, ![H, H']⟩ : Shape).Idx → EReal)
    (b1 : Fin H' → EReal) (w2 : (⟨2, ![H', C]⟩ : Shape).Idx → EReal) (b2 : Fin C → EReal) :
    (⟨2, ![G, C]⟩ : Shape).Idx → EReal :=
  fun j => (∑ k : Fin H', leak ((∑ k' : Fin H, hg (ix2 (j 0 : Fin G) k') * w1 (ix2 k' k)) + b1 k) * w2 (ix2 k (j 1 : Fin C)))
    + b2 (j 1 : Fin C)

/-- The hidden layer of the readout at an entry. -/
def hidden (G H H' : ℕ) (hg : (⟨2, ![G, H]⟩ : Shape).Idx → EReal) (w1 : (⟨2, ![H, H']⟩ : Shape).Idx → EReal)
    (b1 : Fin H' → EReal) : (⟨2, ![G, H']⟩ : Shape).Idx → EReal :=
  fun j => leak ((∑ k' : Fin H, hg (ix2 (j 0 : Fin G) k') * w1 (ix2 k' (j 1 : Fin H'))) + b1 (j 1 : Fin H'))

/-- The block program's spelling of the readout. -/
def kread {G H H' C : ℕ} (x0 : FVec Ideal ⟨2, ![G, H]⟩ .f32) (x1 : FVec Ideal ⟨2, ![H, H']⟩ .f32)
    (x2 : FVec Ideal ⟨2, ![1, H']⟩ .f32) (x3 : FVec Ideal ⟨2, ![H', C]⟩ .f32) (x4 : FVec Ideal ⟨2, ![1, C]⟩ .f32)
    (hr1 : (⟨2, ![1, H']⟩ : Shape).Broadcasts ⟨2, ![G, H']⟩) (hr2 : (⟨2, ![1, C]⟩ : Shape).Broadcasts ⟨2, ![G, C]⟩) :
    FVec Ideal ⟨2, ![G, C]⟩ .f32 :=
  addf
    (matmul (DotDims.plain G H' C) none
      (leakV (addf (matmul (DotDims.plain G H H') none x0 x1 (constant ⟨2, ![G, H']⟩ .f32 0x00000000#32))
        (broadcastTo ⟨2, ![G, H']⟩ x2 hr1)))
      x3 (constant ⟨2, ![G, C]⟩ .f32 0x00000000#32))
    (broadcastTo ⟨2, ![G, C]⟩ x4 hr2)

/-- The block program's hidden layer is `hidden`. -/
theorem khidden_eq {G H H' : ℕ} (x0 : FVec Ideal ⟨2, ![G, H]⟩ .f32) (x1 : FVec Ideal ⟨2, ![H, H']⟩ .f32)
    (x2 : FVec Ideal ⟨2, ![1, H']⟩ .f32) (hr1 : (⟨2, ![1, H']⟩ : Shape).Broadcasts ⟨2, ![G, H']⟩) :
    leakV (addf (matmul (DotDims.plain G H H') none x0 x1 (constant ⟨2, ![G, H']⟩ .f32 0x00000000#32))
        (broadcastTo ⟨2, ![G, H']⟩ x2 hr1))
      = hidden G H H' x0 x1 (fun k => x2 (ix2 (0 : Fin 1) k)) := by
  rw [mm_kernel_f32 x0 x1]
  funext j
  obtain ⟨p, k, rfl⟩ : ∃ (p : Fin G) (k : Fin H'), j = ix2 p k := ⟨j 0, j 1, eq_ix2 j⟩
  rw [leakV_apply, addf_apply, broadcastTo_1b_ab x2 hr1 p k]
  rfl

/-- The block program's spelling is the readout. -/
theorem kread_eq {G H H' C : ℕ} (x0 : FVec Ideal ⟨2, ![G, H]⟩ .f32) (x1 : FVec Ideal ⟨2, ![H, H']⟩ .f32)
    (x2 : FVec Ideal ⟨2, ![1, H']⟩ .f32) (x3 : FVec Ideal ⟨2, ![H', C]⟩ .f32) (x4 : FVec Ideal ⟨2, ![1, C]⟩ .f32)
    (hr1 : (⟨2, ![1, H']⟩ : Shape).Broadcasts ⟨2, ![G, H']⟩) (hr2 : (⟨2, ![1, C]⟩ : Shape).Broadcasts ⟨2, ![G, C]⟩) :
    kread x0 x1 x2 x3 x4 hr1 hr2
      = readout G H H' C x0 x1 (fun k => x2 (ix2 (0 : Fin 1) k)) x3 (fun q => x4 (ix2 (0 : Fin 1) q)) := by
  unfold kread
  rw [khidden_eq x0 x1 x2 hr1, mm_kernel_f32 (hidden G H H' x0 x1 (fun k => x2 (ix2 (0 : Fin 1) k))) x3]
  funext j
  obtain ⟨p, q, rfl⟩ : ∃ (p : Fin G) (q : Fin C), j = ix2 p q := ⟨j 0, j 1, eq_ix2 j⟩
  rw [addf_apply, broadcastTo_1b_ab x4 hr2 p q]
  rfl

/-- The whole-array program's spelling of the readout. -/
def hread {G H H' C : ℕ} (hg : FVec Ideal ⟨2, ![G, H]⟩ .f32) (w1 : FVec Ideal ⟨2, ![H, H']⟩ .f32)
    (b1 : FVec Ideal ⟨1, ![H']⟩ .f32) (w2 : FVec Ideal ⟨2, ![H', C]⟩ .f32) (b2 : FVec Ideal ⟨1, ![C]⟩ .f32)
    (hd1 : (⟨1, ![H']⟩ : Shape).BroadcastsInDim ⟨2, ![1, H']⟩ ![1])
    (hbc1 : (⟨2, ![1, H']⟩ : Shape).BroadcastsInDim ⟨2, ![G, H']⟩ ![0, 1])
    (hd2 : (⟨1, ![C]⟩ : Shape).BroadcastsInDim ⟨2, ![1, C]⟩ ![1])
    (hbc2 : (⟨2, ![1, C]⟩ : Shape).BroadcastsInDim ⟨2, ![G, C]⟩ ![0, 1])
    (hS : (⟨0, ![]⟩ : Shape).BroadcastsInDim ⟨2, ![G, H']⟩ (![] : Fin 0 → Fin 2)) : FVec Ideal ⟨2, ![G, C]⟩ .f32 :=
  addf
    (Host.dotGeneral (DotDims.plain G H' C) none
      (leakHV hS (addf (Host.dotGeneral (DotDims.plain G H H') none hg w1)
        (broadcastInDim ⟨2, ![G, H']⟩ ![0, 1] hbc1 (broadcastInDim ⟨2, ![1, H']⟩ ![1] hd1 b1))))
      w2)
    (broadcastInDim ⟨2, ![G, C]⟩ ![0, 1] hbc2 (broadcastInDim ⟨2, ![1, C]⟩ ![1] hd2 b2))

/-- The whole-array program's spelling is the readout. -/
theorem hread_eq {G H H' C : ℕ} (hg : FVec Ideal ⟨2, ![G, H]⟩ .f32) (w1 : FVec Ideal ⟨2, ![H, H']⟩ .f32)
    (b1 : FVec Ideal ⟨1, ![H']⟩ .f32) (w2 : FVec Ideal ⟨2, ![H', C]⟩ .f32) (b2 : FVec Ideal ⟨1, ![C]⟩ .f32)
    (hd1 : (⟨1, ![H']⟩ : Shape).BroadcastsInDim ⟨2, ![1, H']⟩ ![1])
    (hbc1 : (⟨2, ![1, H']⟩ : Shape).BroadcastsInDim ⟨2, ![G, H']⟩ ![0, 1])
    (hd2 : (⟨1, ![C]⟩ : Shape).BroadcastsInDim ⟨2, ![1, C]⟩ ![1])
    (hbc2 : (⟨2, ![1, C]⟩ : Shape).BroadcastsInDim ⟨2, ![G, C]⟩ ![0, 1])
    (hS : (⟨0, ![]⟩ : Shape).BroadcastsInDim ⟨2, ![G, H']⟩ (![] : Fin 0 → Fin 2)) :
    hread hg w1 b1 w2 b2 hd1 hbc1 hd2 hbc2 hS
      = readout G H H' C hg w1 (fun k => b1 (ix1 k)) w2 (fun q => b2 (ix1 q)) := by
  unfold hread
  have hh : leakHV hS (addf (Host.dotGeneral (DotDims.plain G H H') none hg w1)
        (broadcastInDim ⟨2, ![G, H']⟩ ![0, 1] hbc1 (broadcastInDim ⟨2, ![1, H']⟩ ![1] hd1 b1)))
      = hidden G H H' hg w1 (fun k => b1 (ix1 k)) := by
    rw [leakHV_eq, mm_host hg w1]
    funext j
    obtain ⟨p, k, rfl⟩ : ∃ (p : Fin G) (k : Fin H'), j = ix2 p k := ⟨j 0, j 1, eq_ix2 j⟩
    rw [leakV_apply, addf_apply, bias_rows_host_ix b1 hd1 hbc1 p k]
    rfl
  rw [hh, mm_host (hidden G H H' hg w1 (fun k => b1 (ix1 k))) w2]
  funext j
  obtain ⟨p, q, rfl⟩ : ∃ (p : Fin G) (q : Fin C), j = ix2 p q := ⟨j 0, j 1, eq_ix2 j⟩
  rw [addf_apply, bias_rows_host_ix b2 hd2 hbc2 p q]
  rfl

end Cert.Sage

end
-- ==== Proof.Region2.lean ====
/-
  The last region of the idealized kernel program: the readout, computed in one grid point on whole arrays.

  Every window's one block is its whole array, so what the one point writes back is the readout of the arrays
  the region finds, and that one block covers the output array.
-/
import proofs.«118931_j30133490549162_2_alg».proof.Proof.Gen.KernelIdeal.Frame
import proofs.«118931_j30133490549162_2_alg».proof.Proof.LibEluLayerHost
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the readout of the arrays it loads. -/
theorem pay_eq (x0 x1 : Vec Ideal S128x128 .f32) (x2 : Vec Ideal S1x128 .f32) (x3 : Vec Ideal S128x10 .f32)
    (x4 : Vec Ideal S1x10 .f32) :
    k2_pay1 x0 x1 x2 x3 x4
      = Cert.Sage.readout 128 128 128 10 x0 x1 (fun k => x2 (ix2 (0 : Fin 1) k)) x3 (fun q => x4 (ix2 (0 : Fin 1) q)) := by
  unfold k2_pay1
  simp only [shapeCast_self]
  exact Cert.Sage.kread_eq x0 x1 x2 x3 x4 _ _

/-- The readout of the arrays the region finds. -/
abbrev G (c : Dev nD) : S128x10.Idx → EReal :=
  Cert.Sage.readout 128 128 128 10 (V c main_v52 : S128x128.Idx → EReal) (V c main_v53 : S128x128.Idx → EReal)
    (fun k => (V c main_v55 : S1x128.Idx → EReal) (ix2 (0 : Fin 1) k))
    (V c main_v54 : S128x10.Idx → EReal) (fun q => (V c main_v56 : S1x10.Idx → EReal) (ix2 (0 : Fin 1) q))

/-- The printed index maps, decided over the one grid point: every window sits at block (0, 0). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 ∧ t.val < 1 :=
  (by decide +kernel : ∀ t : Fin grid2.N, _)

/-- Window 0's one block is its whole array. -/
theorem blk0_read (c : Dev nD) (t : Fin cfg2.N) (p : Fin 128) (q : Fin 128) :
    (iblk2 V c 0 t : Vec Ideal S128x128 .f32) (ix2 p q) = (V c main_v52 : S128x128.Idx → EReal) (ix2 p q) := by
  obtain ⟨e0, e1, -⟩ := idx_facts t
  unfold iblk2
  rw [View.read_apply]
  show V c main_v52 _ = V c main_v52 _
  refine congrArg (V c main_v52) ?_
  funext a
  apply Fin.ext
  match a with
  | ⟨0, _⟩ => show win2_0.index t (0 : Fin 2) * 128 + 1 * p.val = p.val; rw [e0]; omega
  | ⟨1, _⟩ => show win2_0.index t (1 : Fin 2) * 128 + 1 * q.val = q.val; rw [e1]; omega

/-- Window 1's one block is its whole array. -/
theorem blk1_read (c : Dev nD) (t : Fin cfg2.N) (p : Fin 128) (q : Fin 128) :
    (iblk2 V c 1 t : Vec Ideal S128x128 .f32) (ix2 p q) = (V c main_v53 : S128x128.Idx → EReal) (ix2 p q) := by
  obtain ⟨-, -, e0, e1, -⟩ := idx_facts t
  unfold iblk2
  rw [View.read_apply]
  show V c main_v53 _ = V c main_v53 _
  refine congrArg (V c main_v53) ?_
  funext a
  apply Fin.ext
  match a with
  | ⟨0, _⟩ => show win2_1.index t (0 : Fin 2) * 128 + 1 * p.val = p.val; rw [e0]; omega
  | ⟨1, _⟩ => show win2_1.index t (1 : Fin 2) * 128 + 1 * q.val = q.val; rw [e1]; omega

/-- Window 2's one block is its whole array. -/
theorem blk2_read (c : Dev nD) (t : Fin cfg2.N) (q : Fin 128) :
    (iblk2 V c 2 t : Vec Ideal S1x128 .f32) (ix2 (0 : Fin 1) q) = (V c main_v55 : S1x128.Idx → EReal) (ix2 (0 : Fin 1) q) := by
  obtain ⟨-, -, -, -, e0, e1, -⟩ := idx_facts t
  unfold iblk2
  rw [View.read_apply]
  show V c main_v55 _ = V c main_v55 _
  refine congrArg (V c main_v55) ?_
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- Window 3's one block is its whole array. -/
theorem blk3_read (c : Dev nD) (t : Fin cfg2.N) (p : Fin 128) (q : Fin 10) :
    (iblk2 V c 3 t : Vec Ideal S128x10 .f32) (ix2 p q) = (V c main_v54 : S128x10.Idx → EReal) (ix2 p q) := by
  obtain ⟨-, -, -, -, -, -, e0, e1, -⟩ := idx_facts t
  unfold iblk2
  rw [View.read_apply]
  show V c main_v54 _ = V c main_v54 _
  refine congrArg (V c main_v54) ?_
  funext a
  apply Fin.ext
  match a with
  | ⟨0, _⟩ => show win2_3.index t (0 : Fin 2) * 128 + 1 * p.val = p.val; rw [e0]; omega
  | ⟨1, _⟩ => show win2_3.index t (1 : Fin 2) * 10 + 1 * q.val = q.val; rw [e1]; omega

/-- Window 4's one block is its whole array. -/
theorem blk4_read (c : Dev nD) (t : Fin cfg2.N) (q : Fin 10) :
    (iblk2 V c 4 t : Vec Ideal S1x10 .f32) (ix2 (0 : Fin 1) q) = (V c main_v56 : S1x10.Idx → EReal) (ix2 (0 : Fin 1) q) := by
  obtain ⟨-, -, -, -, -, -, -, -, e0, e1, -⟩ := idx_facts t
  unfold iblk2
  rw [View.read_apply]
  show V c main_v56 _ = V c main_v56 _
  refine congrArg (V c main_v56) ?_
  funext a
  apply Fin.ext
  match a with
  | ⟨0, _⟩ => show win2_4.index t (0 : Fin 2) * 1 + 1 * 0 = 0; rw [e0]
  | ⟨1, _⟩ => show win2_4.index t (1 : Fin 2) * 10 + 1 * q.val = q.val; rw [e1]; omega

/-- An entry of the readout depends on the arrays' entries only: two families of arrays that agree entry by entry
    give the same readout. -/
theorem readout_congr (hg hg' w1 w1' : S128x128.Idx → EReal) (b1 b1' : Fin 128 → EReal) (w2 w2' : S128x10.Idx → EReal)
    (b2 b2' : Fin 10 → EReal) (h0 : ∀ p k, hg (ix2 p k) = hg' (ix2 p k)) (h1 : ∀ k q, w1 (ix2 k q) = w1' (ix2 k q))
    (h2 : ∀ k, b1 k = b1' k) (h3 : ∀ k q, w2 (ix2 k q) = w2' (ix2 k q)) (h4 : ∀ q, b2 q = b2' q) :
    Cert.Sage.readout 128 128 128 10 hg w1 b1 w2 b2 = Cert.Sage.readout 128 128 128 10 hg' w1' b1' w2' b2' := by
  have e0 : hg = hg' := funext fun j => by
    obtain ⟨p, k, rfl⟩ : ∃ (p : Fin 128) (k : Fin 128), j = ix2 p k := ⟨j 0, j 1, eq_ix2 j⟩
    exact h0 p k
  have e1 : w1 = w1' := funext fun j => by
    obtain ⟨p, k, rfl⟩ : ∃ (p : Fin 128) (k : Fin 128), j = ix2 p k := ⟨j 0, j 1, eq_ix2 j⟩
    exact h1 p k
  have e3 : w2 = w2' := funext fun j => by
    obtain ⟨p, k, rfl⟩ : ∃ (p : Fin 128) (k : Fin 10), j = ix2 p k := ⟨j 0, j 1, eq_ix2 j⟩
    exact h3 p k
  rw [e0, e1, e3, funext h2, funext h4]

/-- What the one point writes back is its block of the readout. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S128x128) hz, View.ld_unit_zero (S := S1x128) hz,
    View.ld_unit_zero (S := S128x10) hz, View.ld_unit_zero (S := S1x10) hz]
  rw [pay_eq]
  obtain ⟨-, -, -, -, -, -, -, -, -, -, e0, e1, -⟩ := idx_facts t
  rw [readout_congr _ (V c main_v52) _ (V c main_v53) _ (fun k => (V c main_v55 : S1x128.Idx → EReal) (ix2 (0 : Fin 1) k))
    _ (V c main_v54) _ (fun q => (V c main_v56 : S1x10.Idx → EReal) (ix2 (0 : Fin 1) q))
    (fun p k => blk0_read V c t p k) (fun k q => blk1_read V c t k q) (fun k => blk2_read V c t k)
    (fun k q => blk3_read V c t k q) (fun q => blk4_read V c t q)]
  funext y
  obtain ⟨p, q, rfl⟩ : ∃ (p : Fin 128) (q : Fin 10), y = ix2 p q := ⟨y 0, y 1, eq_ix2 y⟩
  have hemb : ((cfg2.win 5).blk t).view.emb (ix2 p q) = (ix2 p q : S128x10.Idx) := by
    funext a
    apply Fin.ext
    match a with
    | ⟨0, _⟩ => show win2_5.index t (0 : Fin 2) * 128 + 1 * p.val = p.val; rw [e0]; omega
    | ⟨1, _⟩ => show win2_5.index t (1 : Fin 2) * 10 + 1 * q.val = q.val; rw [e1]; omega
  show G V c (ix2 p q) = G V c (((cfg2.win 5).blk t).view.emb (ix2 p q))
  rw [hemb]

/-- An index of the array is in the point's block iff each coordinate is in the block's range on its axis. -/
theorem mem_blk (t : Fin cfg2.N) (i : S128x10.Idx) :
    i ∈ ((cfg2.win 5).blk t).view.set ↔ ∀ a : Fin 2, win2_5.index t a * S128x10.size a ≤ (i a).val ∧ (i a).val < win2_5.index t a * S128x10.size a + S128x10.size a := by
  show i ∈ ((View.whole main_v57).slice (win2_5.rect t)).set ↔ _
  rw [View.set_slice_whole, Rect.mem_set_unit]
  exact Iff.rfl

/-- The one block covers the array. -/
theorem cover (i : S128x10.Idx) : ∃ t : Fin cfg2.N, (cfg2.win 5).flush t = true ∧ i ∈ ((cfg2.win 5).blk t).view.set := by
  have hi0 : (i 0).val < 128 := (i 0).isLt
  have hi1 : (i 1).val < 10 := (i 1).isLt
  obtain ⟨-, -, -, -, -, -, -, -, -, -, e0, e1, -⟩ := idx_facts t2_0
  refine ⟨t2_0, flush2_5 t2_0, ?_⟩
  rw [mem_blk]
  intro a
  match a with
  | ⟨0, _⟩ => show win2_5.index t2_0 (0 : Fin 2) * 128 ≤ (i 0).val ∧ (i 0).val < win2_5.index t2_0 (0 : Fin 2) * 128 + 128; rw [e0]; omega
  | ⟨1, _⟩ => show win2_5.index t2_0 (1 : Fin 2) * 10 ≤ (i 1).val ∧ (i 1).val < win2_5.index t2_0 (1 : Fin 2) * 10 + 10; rw [e1]; omega

/-- THE ARRAY after the region: the readout of the arrays the region finds. -/
theorem final (c : Dev nD) : (dat2 V c).arrAt 5 cfg2.N = G V c :=
  (dat2 V c).arrAt_eq_of_cover 5 (G V c) (fun t _ => flushed_eq V c t) cover

end Cert.KernelIdeal.Region2

end
-- ==== Proof.KHost.lean ====
/-
  The host operations of the idealized kernel program between its regions, read back as terms.

  Before the first layer the program computes, per node, the reciprocal of max(in-degree, 1) as a one-column
  matrix, the four weight transposes, the first bias as a one-row matrix, and the neighbour sums of the input
  features: the features are narrowed to bf16, the rows at the edges' sources gathered, widened again, and
  scatter-added at the edges' targets.  Between the two layers it computes the neighbour sums of the first
  layer's output in the same way and the second bias row.  Before the readout it computes the per-graph mean
  of the second layer's output, the readout's weight transposes and bias rows.

  Each buffer a later region or stretch reads is stated here as its term over the contents the stretch starts
  from (an arbitrary valuation W), and each buffer the stretch leaves alone as unchanged.
-/
import proofs.«118931_j30133490549162_2_alg».proof.Proof.Gen.KernelIdeal.Launch
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo
variable {F : FTy → Type} [FloatOps F]

/-! ## The terms -/

/-- The reciprocal in-degree of every node: one over the larger of one and the number of edges into the node. -/
def invDeg (dst : (⟨S1600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The same as a one-column matrix. -/
def invDegCol (dst : (⟨S1600000, .i32⟩ : BufTy).Contents (Elt F)) : (⟨S100000x1, .f32⟩ : BufTy).Contents (Elt F) :=
  shapeCast S100000x1 (invDeg dst) shapeCasts_S100000_S100000x1

/-- The edges' source words as gather indices: a negative word has the number of nodes added. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The sum, over the edges into a node, of the source node's feature row, the rows gathered from a bf16 copy. -/
def neighSum (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (extf .f32 (Host.gather gather_S100000x128_S1600000x1_S1600000x128_1_0_n_n_0_1_1128
      (truncf .bf16 h bitsLt_bf16_f32) (srcIdx src)) bitsLt_bf16_f32)

/-- The per-graph mean of node features. -/
def pool (h : (⟨S100000x128, .f32⟩ : BufTy).Contents (Elt F)) (ng : (⟨S100000, .i32⟩ : BufTy).Contents (Elt F)) : (⟨S128x128, .f32⟩ : BufTy).Contents (Elt F) :=
  Host.divf
    (Host.scatterAdd scatter_S128x128_S100000x1_S100000x128_1_0_0_1
      (broadcastInDim S128x128 ![] bcast_S_S128x128 (constant S_ .f32 0x00000000#32))
      (broadcastInDim S100000x1 ![0] bcast_S100000_S100000x1_0 ng) h)
    (broadcastInDim S128x128 ![0, 1] bcast_S128x1_S128x128_0_1
      (broadcastInDim S128x1 ![0] bcast_S128_S128x1_0
        (maximumf
          (Host.scatterAdd scatter_S128_S100000x1_S100000_n_0_0_1
            (broadcastInDim S128 ![] bcast_S_S128 (constant S_ .f32 0x00000000#32))
            (broadcastInDim S100000x1 ![0] bcast_S100000_S100000x1_0 ng)
            (broadcastInDim S100000 ![] bcast_S_S100000 (constant S_ .f32 0x3F800000#32)))
          (broadcastInDim S128 ![] bcast_S_S128 (constant S_ .f32 0x3F800000#32)))))

/-- A square weight matrix transposed. -/
def tr (w : (⟨S128x128, .f32⟩ : BufTy).Contents (Elt F)) : (⟨S128x128, .f32⟩ : BufTy).Contents (Elt F) :=
  transpose S128x128 [1, 0] w transposes_S128x128_S128x128_1_0

/-- The output weights transposed. -/
def trOut (w : (⟨S10x128, .f32⟩ : BufTy).Contents (Elt F)) : (⟨S128x10, .f32⟩ : BufTy).Contents (Elt F) :=
  transpose S128x10 [1, 0] w transposes_S10x128_S128x10_1_0

/-- A length-128 bias as a one-row matrix. -/
def row (b : (⟨S128, .f32⟩ : BufTy).Contents (Elt F)) : (⟨S1x128, .f32⟩ : BufTy).Contents (Elt F) := shapeCast S1x128 b shapeCasts_S128_S1x128

/-- The length-10 bias as a one-row matrix. -/
def rowOut (b : (⟨S10, .f32⟩ : BufTy).Contents (Elt F)) : (⟨S1x10, .f32⟩ : BufTy).Contents (Elt F) := shapeCast S1x10 b shapeCasts_S10_S1x10

variable (W : Valuation τ sig (Elt F))

/-! ## The stretch before the first layer -/

set_option maxHeartbeats 2000000 in
theorem s0_v24 : StableHlo.after hostOps0 W (Proc.devRef .tc main_v24)
    = neighSum (W (Proc.devRef .tc main_arg0)) (W (Proc.devRef .tc main_arg1)) (W (Proc.devRef .tc main_arg2)) := by
  after_results_simp
  rfl
theorem s0_v8 : StableHlo.after hostOps0 W (Proc.devRef .tc main_v8) = invDegCol (W (Proc.devRef .tc main_arg2)) := by
  after_results
  rfl
theorem s0_v9 : StableHlo.after hostOps0 W (Proc.devRef .tc main_v9) = tr (W (Proc.devRef .tc main_arg4)) := by
  after_results
  rfl
theorem s0_v10 : StableHlo.after hostOps0 W (Proc.devRef .tc main_v10) = tr (W (Proc.devRef .tc main_arg5)) := by
  after_results
  rfl
theorem s0_v11 : StableHlo.after hostOps0 W (Proc.devRef .tc main_v11) = tr (W (Proc.devRef .tc main_arg7)) := by
  after_results
  rfl
theorem s0_v12 : StableHlo.after hostOps0 W (Proc.devRef .tc main_v12) = tr (W (Proc.devRef .tc main_arg8)) := by
  after_results
  rfl
theorem s0_v25 : StableHlo.after hostOps0 W (Proc.devRef .tc main_v25) = row (W (Proc.devRef .tc main_arg6)) := by
  after_results
  rfl
theorem s0_arg0 : StableHlo.after hostOps0 W (Proc.devRef .tc main_arg0) = W (Proc.devRef .tc main_arg0) := by
  after_results
theorem s0_arg1 : StableHlo.after hostOps0 W (Proc.devRef .tc main_arg1) = W (Proc.devRef .tc main_arg1) := by
  after_results
theorem s0_arg2 : StableHlo.after hostOps0 W (Proc.devRef .tc main_arg2) = W (Proc.devRef .tc main_arg2) := by
  after_results
theorem s0_arg3 : StableHlo.after hostOps0 W (Proc.devRef .tc main_arg3) = W (Proc.devRef .tc main_arg3) := by
  after_results
theorem s0_arg9 : StableHlo.after hostOps0 W (Proc.devRef .tc main_arg9) = W (Proc.devRef .tc main_arg9) := by
  after_results
theorem s0_arg10 : StableHlo.after hostOps0 W (Proc.devRef .tc main_arg10) = W (Proc.devRef .tc main_arg10) := by
  after_results
theorem s0_arg11 : StableHlo.after hostOps0 W (Proc.devRef .tc main_arg11) = W (Proc.devRef .tc main_arg11) := by
  after_results
theorem s0_arg12 : StableHlo.after hostOps0 W (Proc.devRef .tc main_arg12) = W (Proc.devRef .tc main_arg12) := by
  after_results
theorem s0_arg13 : StableHlo.after hostOps0 W (Proc.devRef .tc main_arg13) = W (Proc.devRef .tc main_arg13) := by
  after_results

/-! ## The stretch between the layers -/

set_option maxHeartbeats 2000000 in
theorem s1_v38 : StableHlo.after hostOps1 W (Proc.devRef .tc main_v38)
    = neighSum (W (Proc.devRef .tc main_v26)) (W (Proc.devRef .tc main_arg1)) (W (Proc.devRef .tc main_arg2)) := by
  after_results_simp
  rfl
theorem s1_v39 : StableHlo.after hostOps1 W (Proc.devRef .tc main_v39) = row (W (Proc.devRef .tc main_arg9)) := by
  after_results
  rfl
theorem s1_v26 : StableHlo.after hostOps1 W (Proc.devRef .tc main_v26) = W (Proc.devRef .tc main_v26) := by
  after_results
theorem s1_v8 : StableHlo.after hostOps1 W (Proc.devRef .tc main_v8) = W (Proc.devRef .tc main_v8) := by
  after_results
theorem s1_v11 : StableHlo.after hostOps1 W (Proc.devRef .tc main_v11) = W (Proc.devRef .tc main_v11) := by
  after_results
theorem s1_v12 : StableHlo.after hostOps1 W (Proc.devRef .tc main_v12) = W (Proc.devRef .tc main_v12) := by
  after_results
theorem s1_arg3 : StableHlo.after hostOps1 W (Proc.devRef .tc main_arg3) = W (Proc.devRef .tc main_arg3) := by
  after_results
theorem s1_arg10 : StableHlo.after hostOps1 W (Proc.devRef .tc main_arg10) = W (Proc.devRef .tc main_arg10) := by
  after_results
theorem s1_arg11 : StableHlo.after hostOps1 W (Proc.devRef .tc main_arg11) = W (Proc.devRef .tc main_arg11) := by
  after_results
theorem s1_arg12 : StableHlo.after hostOps1 W (Proc.devRef .tc main_arg12) = W (Proc.devRef .tc main_arg12) := by
  after_results
theorem s1_arg13 : StableHlo.after hostOps1 W (Proc.devRef .tc main_arg13) = W (Proc.devRef .tc main_arg13) := by
  after_results

/-! ## The stretch before the readout -/

set_option maxHeartbeats 2000000 in
theorem s2_v52 : StableHlo.after hostOps2 W (Proc.devRef .tc main_v52) = pool (W (Proc.devRef .tc main_v40)) (W (Proc.devRef .tc main_arg3)) := by
  after_results_simp
  rfl
theorem s2_v53 : StableHlo.after hostOps2 W (Proc.devRef .tc main_v53) = tr (W (Proc.devRef .tc main_arg10)) := by
  after_results
  rfl
theorem s2_v54 : StableHlo.after hostOps2 W (Proc.devRef .tc main_v54) = trOut (W (Proc.devRef .tc main_arg12)) := by
  after_results
  rfl
theorem s2_v55 : StableHlo.after hostOps2 W (Proc.devRef .tc main_v55) = row (W (Proc.devRef .tc main_arg11)) := by
  after_results
  rfl
theorem s2_v56 : StableHlo.after hostOps2 W (Proc.devRef .tc main_v56) = rowOut (W (Proc.devRef .tc main_arg13)) := by
  after_results
  rfl

end Cert.KernelIdeal.KHost

end
-- ==== Proof.KValue.lean ====
/-
  The idealized kernel program's result as ONE function of its argument arrays.

  The program is six segments: host operations, the first layer's region, host operations, the second layer's
  region, host operations, the readout's region.  Walking the buffer contents from the launch memory through the
  segments: the first stretch leaves the reciprocal in-degree column, the weight transposes, the first bias row
  and the neighbour sums of the input features; the first region leaves the first layer of those arrays; the
  second stretch leaves the neighbour sums of that layer and the second bias row; the second region the second
  layer; the third stretch the per-graph mean, the readout's transposes and bias rows; the last region the
  readout.  Every argument array is untouched on the way.
-/
import proofs.«118931_j30133490549162_2_alg».proof.Proof.Gen.KernelIdeal.Frame
import proofs.«118931_j30133490549162_2_alg».proof.Proof.Region0
import proofs.«118931_j30133490549162_2_alg».proof.Proof.Region1
import proofs.«118931_j30133490549162_2_alg».proof.Proof.Region2
import proofs.«118931_j30133490549162_2_alg».proof.Proof.KHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.KHost

variable (m : (ℓ : Loc nD τ sig) → Buf (Elt Ideal) ℓ) (ρ : Dev nD → PrngReg) (c : Dev nD)

/-! ## The values -/

/-- The first layer of the input features. -/
def H1 : S100000x128.Idx → EReal :=
  Cert.Sage.layer 100000 128 128 (m ((c : Thread nD τ).loc main_arg0)) (neighSum (m ((c : Thread nD τ).loc main_arg0)) (m ((c : Thread nD τ).loc main_arg1)) (m ((c : Thread nD τ).loc main_arg2)))
    (fun r => (invDegCol (m ((c : Thread nD τ).loc main_arg2)) : S100000x1.Idx → EReal) (ix2 r (0 : Fin 1)))
    (tr (m ((c : Thread nD τ).loc main_arg4))) (tr (m ((c : Thread nD τ).loc main_arg5))) (fun q => (row (m ((c : Thread nD τ).loc main_arg6)) : S1x128.Idx → EReal) (ix2 (0 : Fin 1) q))

/-- The second layer. -/
def H2 : S100000x128.Idx → EReal :=
  Cert.Sage.layer 100000 128 128 (H1 m c) (neighSum (H1 m c) (m ((c : Thread nD τ).loc main_arg1)) (m ((c : Thread nD τ).loc main_arg2)))
    (fun r => (invDegCol (m ((c : Thread nD τ).loc main_arg2)) : S100000x1.Idx → EReal) (ix2 r (0 : Fin 1)))
    (tr (m ((c : Thread nD τ).loc main_arg7))) (tr (m ((c : Thread nD τ).loc main_arg8))) (fun q => (row (m ((c : Thread nD τ).loc main_arg9)) : S1x128.Idx → EReal) (ix2 (0 : Fin 1) q))

/-- The result. -/
def out : S128x10.Idx → EReal :=
  Cert.Sage.readout 128 128 128 10 (pool (H2 m c) (m ((c : Thread nD τ).loc main_arg3))) (tr (m ((c : Thread nD τ).loc main_arg10)))
    (fun k => (row (m ((c : Thread nD τ).loc main_arg11)) : S1x128.Idx → EReal) (ix2 (0 : Fin 1) k))
    (trOut (m ((c : Thread nD τ).loc main_arg12))) (fun q => (rowOut (m ((c : Thread nD τ).loc main_arg13)) : S1x10.Idx → EReal) (ix2 (0 : Fin 1) q))

/-! ## After the first stretch -/

theorem W1_arg0 : W1 m ρ c (Proc.devRef .tc main_arg0) = (m ((c : Thread nD τ).loc main_arg0)) := s0_arg0 (W0 m ρ c)
theorem W1_arg1 : W1 m ρ c (Proc.devRef .tc main_arg1) = (m ((c : Thread nD τ).loc main_arg1)) := s0_arg1 (W0 m ρ c)
theorem W1_arg2 : W1 m ρ c (Proc.devRef .tc main_arg2) = (m ((c : Thread nD τ).loc main_arg2)) := s0_arg2 (W0 m ρ c)
theorem W1_arg3 : W1 m ρ c (Proc.devRef .tc main_arg3) = (m ((c : Thread nD τ).loc main_arg3)) := s0_arg3 (W0 m ρ c)
theorem W1_arg9 : W1 m ρ c (Proc.devRef .tc main_arg9) = (m ((c : Thread nD τ).loc main_arg9)) := s0_arg9 (W0 m ρ c)
theorem W1_arg10 : W1 m ρ c (Proc.devRef .tc main_arg10) = (m ((c : Thread nD τ).loc main_arg10)) := s0_arg10 (W0 m ρ c)
theorem W1_arg11 : W1 m ρ c (Proc.devRef .tc main_arg11) = (m ((c : Thread nD τ).loc main_arg11)) := s0_arg11 (W0 m ρ c)
theorem W1_arg12 : W1 m ρ c (Proc.devRef .tc main_arg12) = (m ((c : Thread nD τ).loc main_arg12)) := s0_arg12 (W0 m ρ c)
theorem W1_arg13 : W1 m ρ c (Proc.devRef .tc main_arg13) = (m ((c : Thread nD τ).loc main_arg13)) := s0_arg13 (W0 m ρ c)
theorem W1_v24 : W1 m ρ c (Proc.devRef .tc main_v24) = neighSum (m ((c : Thread nD τ).loc main_arg0)) (m ((c : Thread nD τ).loc main_arg1)) (m ((c : Thread nD τ).loc main_arg2)) := s0_v24 (W0 m ρ c)
theorem W1_v8 : W1 m ρ c (Proc.devRef .tc main_v8) = invDegCol (m ((c : Thread nD τ).loc main_arg2)) := s0_v8 (W0 m ρ c)
theorem W1_v9 : W1 m ρ c (Proc.devRef .tc main_v9) = tr (m ((c : Thread nD τ).loc main_arg4)) := s0_v9 (W0 m ρ c)
theorem W1_v10 : W1 m ρ c (Proc.devRef .tc main_v10) = tr (m ((c : Thread nD τ).loc main_arg5)) := s0_v10 (W0 m ρ c)
theorem W1_v11 : W1 m ρ c (Proc.devRef .tc main_v11) = tr (m ((c : Thread nD τ).loc main_arg7)) := s0_v11 (W0 m ρ c)
theorem W1_v12 : W1 m ρ c (Proc.devRef .tc main_v12) = tr (m ((c : Thread nD τ).loc main_arg8)) := s0_v12 (W0 m ρ c)
theorem W1_v25 : W1 m ρ c (Proc.devRef .tc main_v25) = row (m ((c : Thread nD τ).loc main_arg6)) := s0_v25 (W0 m ρ c)

/-! ## After the first region -/

theorem W2_v26 : W2 m ρ c (Proc.devRef .tc main_v26) = H1 m c := by
  refine (W2_arr m ρ c 6).trans ((Region0.final (V1 m ρ) c).trans ?_)
  show Cert.Sage.layer 100000 128 128 (W1 m ρ c (Proc.devRef .tc main_arg0)) (W1 m ρ c (Proc.devRef .tc main_v24))
      (fun r => (W1 m ρ c (Proc.devRef .tc main_v8) : S100000x1.Idx → EReal) (ix2 r (0 : Fin 1)))
      (W1 m ρ c (Proc.devRef .tc main_v9)) (W1 m ρ c (Proc.devRef .tc main_v10))
      (fun q => (W1 m ρ c (Proc.devRef .tc main_v25) : S1x128.Idx → EReal) (ix2 (0 : Fin 1) q)) = _
  rw [W1_arg0, W1_v24, W1_v8, W1_v9, W1_v10, W1_v25]
  rfl
theorem W2_v8 : W2 m ρ c (Proc.devRef .tc main_v8) = invDegCol (m ((c : Thread nD τ).loc main_arg2)) :=
  ((W2_arr m ρ c 2).trans (((dat0 (V1 m ρ) c).arrAt_in 2 rfl _).trans (A_eq0 (V1 m ρ) c 2))).trans (W1_v8 m ρ c)
theorem W2_v11 : W2 m ρ c (Proc.devRef .tc main_v11) = tr (m ((c : Thread nD τ).loc main_arg7)) := (W2_of_ne m ρ c main_v11 (by decide)).trans (W1_v11 m ρ c)
theorem W2_v12 : W2 m ρ c (Proc.devRef .tc main_v12) = tr (m ((c : Thread nD τ).loc main_arg8)) := (W2_of_ne m ρ c main_v12 (by decide)).trans (W1_v12 m ρ c)
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg9 : W2 m ρ c (Proc.devRef .tc main_arg9) = (m ((c : Thread nD τ).loc main_arg9)) := (W2_of_ne m ρ c main_arg9 (by decide)).trans (W1_arg9 m ρ c)
theorem W2_arg10 : W2 m ρ c (Proc.devRef .tc main_arg10) = (m ((c : Thread nD τ).loc main_arg10)) := (W2_of_ne m ρ c main_arg10 (by decide)).trans (W1_arg10 m ρ c)
theorem W2_arg11 : W2 m ρ c (Proc.devRef .tc main_arg11) = (m ((c : Thread nD τ).loc main_arg11)) := (W2_of_ne m ρ c main_arg11 (by decide)).trans (W1_arg11 m ρ c)
theorem W2_arg12 : W2 m ρ c (Proc.devRef .tc main_arg12) = (m ((c : Thread nD τ).loc main_arg12)) := (W2_of_ne m ρ c main_arg12 (by decide)).trans (W1_arg12 m ρ c)
theorem W2_arg13 : W2 m ρ c (Proc.devRef .tc main_arg13) = (m ((c : Thread nD τ).loc main_arg13)) := (W2_of_ne m ρ c main_arg13 (by decide)).trans (W1_arg13 m ρ c)

/-! ## After the second stretch -/

theorem W3_v26 : W3 m ρ c (Proc.devRef .tc main_v26) = H1 m c := (s1_v26 (W2 m ρ c)).trans (W2_v26 m ρ c)
theorem W3_v38 : W3 m ρ c (Proc.devRef .tc main_v38) = neighSum (H1 m c) (m ((c : Thread nD τ).loc main_arg1)) (m ((c : Thread nD τ).loc main_arg2)) := by
  refine (s1_v38 (W2 m ρ c)).trans ?_
  rw [W2_v26, W2_arg1, W2_arg2]
theorem W3_v8 : W3 m ρ c (Proc.devRef .tc main_v8) = invDegCol (m ((c : Thread nD τ).loc main_arg2)) := (s1_v8 (W2 m ρ c)).trans (W2_v8 m ρ c)
theorem W3_v11 : W3 m ρ c (Proc.devRef .tc main_v11) = tr (m ((c : Thread nD τ).loc main_arg7)) := (s1_v11 (W2 m ρ c)).trans (W2_v11 m ρ c)
theorem W3_v12 : W3 m ρ c (Proc.devRef .tc main_v12) = tr (m ((c : Thread nD τ).loc main_arg8)) := (s1_v12 (W2 m ρ c)).trans (W2_v12 m ρ c)
theorem W3_v39 : W3 m ρ c (Proc.devRef .tc main_v39) = row (m ((c : Thread nD τ).loc main_arg9)) := by
  refine (s1_v39 (W2 m ρ c)).trans ?_
  rw [W2_arg9]
theorem W3_arg3 : W3 m ρ c (Proc.devRef .tc main_arg3) = (m ((c : Thread nD τ).loc main_arg3)) := (s1_arg3 (W2 m ρ c)).trans (W2_arg3 m ρ c)
theorem W3_arg10 : W3 m ρ c (Proc.devRef .tc main_arg10) = (m ((c : Thread nD τ).loc main_arg10)) := (s1_arg10 (W2 m ρ c)).trans (W2_arg10 m ρ c)
theorem W3_arg11 : W3 m ρ c (Proc.devRef .tc main_arg11) = (m ((c : Thread nD τ).loc main_arg11)) := (s1_arg11 (W2 m ρ c)).trans (W2_arg11 m ρ c)
theorem W3_arg12 : W3 m ρ c (Proc.devRef .tc main_arg12) = (m ((c : Thread nD τ).loc main_arg12)) := (s1_arg12 (W2 m ρ c)).trans (W2_arg12 m ρ c)
theorem W3_arg13 : W3 m ρ c (Proc.devRef .tc main_arg13) = (m ((c : Thread nD τ).loc main_arg13)) := (s1_arg13 (W2 m ρ c)).trans (W2_arg13 m ρ c)

/-! ## After the second region -/

theorem W4_v40 : W4 m ρ c (Proc.devRef .tc main_v40) = H2 m c := by
  refine (W4_arr m ρ c 6).trans ((Region1.final (V3 m ρ) c).trans ?_)
  show Cert.Sage.layer 100000 128 128 (W3 m ρ c (Proc.devRef .tc main_v26)) (W3 m ρ c (Proc.devRef .tc main_v38))
      (fun r => (W3 m ρ c (Proc.devRef .tc main_v8) : S100000x1.Idx → EReal) (ix2 r (0 : Fin 1)))
      (W3 m ρ c (Proc.devRef .tc main_v11)) (W3 m ρ c (Proc.devRef .tc main_v12))
      (fun q => (W3 m ρ c (Proc.devRef .tc main_v39) : S1x128.Idx → EReal) (ix2 (0 : Fin 1) q)) = _
  rw [W3_v26, W3_v38, W3_v8, W3_v11, W3_v12, W3_v39]
  rfl
theorem W4_arg3 : W4 m ρ c (Proc.devRef .tc main_arg3) = (m ((c : Thread nD τ).loc main_arg3)) := (W4_of_ne m ρ c main_arg3 (by decide)).trans (W3_arg3 m ρ c)
theorem W4_arg10 : W4 m ρ c (Proc.devRef .tc main_arg10) = (m ((c : Thread nD τ).loc main_arg10)) := (W4_of_ne m ρ c main_arg10 (by decide)).trans (W3_arg10 m ρ c)
theorem W4_arg11 : W4 m ρ c (Proc.devRef .tc main_arg11) = (m ((c : Thread nD τ).loc main_arg11)) := (W4_of_ne m ρ c main_arg11 (by decide)).trans (W3_arg11 m ρ c)
theorem W4_arg12 : W4 m ρ c (Proc.devRef .tc main_arg12) = (m ((c : Thread nD τ).loc main_arg12)) := (W4_of_ne m ρ c main_arg12 (by decide)).trans (W3_arg12 m ρ c)
theorem W4_arg13 : W4 m ρ c (Proc.devRef .tc main_arg13) = (m ((c : Thread nD τ).loc main_arg13)) := (W4_of_ne m ρ c main_arg13 (by decide)).trans (W3_arg13 m ρ c)

/-! ## After the third stretch -/

theorem W5_v52 : W5 m ρ c (Proc.devRef .tc main_v52) = pool (H2 m c) (m ((c : Thread nD τ).loc main_arg3)) := by
  refine (s2_v52 (W4 m ρ c)).trans ?_
  rw [W4_v40, W4_arg3]
theorem W5_v53 : W5 m ρ c (Proc.devRef .tc main_v53) = tr (m ((c : Thread nD τ).loc main_arg10)) := by
  refine (s2_v53 (W4 m ρ c)).trans ?_
  rw [W4_arg10]
theorem W5_v54 : W5 m ρ c (Proc.devRef .tc main_v54) = trOut (m ((c : Thread nD τ).loc main_arg12)) := by
  refine (s2_v54 (W4 m ρ c)).trans ?_
  rw [W4_arg12]
theorem W5_v55 : W5 m ρ c (Proc.devRef .tc main_v55) = row (m ((c : Thread nD τ).loc main_arg11)) := by
  refine (s2_v55 (W4 m ρ c)).trans ?_
  rw [W4_arg11]
theorem W5_v56 : W5 m ρ c (Proc.devRef .tc main_v56) = rowOut (m ((c : Thread nD τ).loc main_arg13)) := by
  refine (s2_v56 (W4 m ρ c)).trans ?_
  rw [W4_arg13]

/-! ## After the last region -/

/-- The result's buffer at the last boundary is `out` of the argument arrays. -/
theorem W6_v57 : W6 m ρ c (Proc.devRef .tc main_v57) = out m c := by
  refine (W6_arr m ρ c 5).trans ((Region2.final (V5 m ρ) c).trans ?_)
  show Cert.Sage.readout 128 128 128 10 (W5 m ρ c (Proc.devRef .tc main_v52)) (W5 m ρ c (Proc.devRef .tc main_v53))
      (fun k => (W5 m ρ c (Proc.devRef .tc main_v55) : S1x128.Idx → EReal) (ix2 (0 : Fin 1) k))
      (W5 m ρ c (Proc.devRef .tc main_v54))
      (fun q => (W5 m ρ c (Proc.devRef .tc main_v56) : S1x10.Idx → EReal) (ix2 (0 : Fin 1) q)) = _
  rw [W5_v52, W5_v53, W5_v55, W5_v54, W5_v56]
  rfl

end Cert.KernelIdeal.KValue

end
-- ==== Proof.RefRun.lean ====
/-
  The run of the reference program, stated over the LIST of its host operations.

  The reference's @main is a straight line of tensor operations: ninety-one statements, five of them calls of
  module-local functions — `elu` twice and `leaky_relu` twice over 100000×128 arrays, `leaky_relu_1` once over a
  128×128 array — and those functions call `_where` (select against a broadcast scalar), `_where_0` and `_where_2`
  (plain selects). A call means its callee's body substituted at the call site over that call's own buffers, so the whole
  program is one line of one hundred and thirty-six operations: each `elu(x)` is fifteen (the zero, its broadcast and
  `x > 0` twice over; a third zero, `_where`'s conversion, broadcast and select giving `min(x, 0)` spelt as a
  select; `expm1`; the one, its broadcast, the product; `_where_0`'s select between `x` and that product), each
  `leaky_relu(x)` seven (the zero, its broadcast, `x ≥ 0`; the slope 0.01, its broadcast, the product; the select).
  `ops0` lists the operations of @main's first window (eighty) and `ops1` those of its second (fifty-six), in program
  order; `ops` is their concatenation.

  `main_eq`: @main is `seq ops`. Window by window: once the functions' definitions unfold at their calls and
  sequencing is reassociated (`bind_assoc`, `pure_bind`), a window and `seq` of its list are the same chain of `hlo`
  steps; two windows run in order are the concatenated list run as one (`seq_append`).

  `run_main`: the signature scopes no buffer and no semaphore and every operation touches TensorCore references only,
  so from any memory with zero counters every weakly fair execution of @main terminates with every TensorCore buffer at
  the fold of the operations' results over its launch contents (`StableHlo.run_seq`).
-/
import proofs.«118931_j30133490549162_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, in order: the in-degree count (a scatter-add of ones), its reciprocal
    against a floor of one, the first layer's index wrap (a negative index moved up by the row count), gather,
    scatter-add, scaling, two products against the transposed weights and bias, `elu` (fifteen operations over the record
    `main_call0`) and `leaky_relu` (seven over `main_call1`), then the second layer's index wrap, gather, scatter-add,
    scaling, two products and the bias row's broadcasts. -/
abbrev ops0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_arg1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v11 (broadcastInDim S1600000 ![] bcast_S_S1600000 : (⟨S_, .i32⟩ : BufTy).Contents (Elt F) → (⟨S1600000, .i32⟩ : BufTy).Contents (Elt F)),
    binary main_arg1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_arg1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_arg0 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v16 (broadcastInDim S100000x128 ![] bcast_S_S100000x128 : (⟨S_, .f32⟩ : BufTy).Contents (Elt F) → (⟨S100000x128, .f32⟩ : BufTy).Contents (Elt F)),
    unary main_arg2 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v19 (broadcastInDim S100000x128 ![0, 1] bcast_S100000x1_S100000x128_0_1 : (⟨S100000x1, .f32⟩ : BufTy).Contents (Elt F) → (⟨S100000x128, .f32⟩ : BufTy).Contents (Elt F)),
    binary main_v18 main_v19 main_v20 (mulf : (⟨S100000x128, .f32⟩ : BufTy).Contents (Elt F) → (⟨S100000x128, .f32⟩ : BufTy).Contents (Elt F) → (⟨S100000x128, .f32⟩ : BufTy).Contents (Elt F)),
    unary main_arg4 main_v21 ((transpose S128x128 [1, 0] · transposes_S128x128_S128x128_1_0) : (⟨S128x128, .f32⟩ : BufTy).Contents (Elt F) → (⟨S128x128, .f32⟩ : BufTy).Contents (Elt F)),
    binary main_arg0 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v23 ((transpose S128x128 [1, 0] · transposes_S128x128_S128x128_1_0) : (⟨S128x128, .f32⟩ : BufTy).Contents (Elt F) → (⟨S128x128, .f32⟩ : BufTy).Contents (Elt F)),
    binary main_v20 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    unary main_arg6 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v28 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v28 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v28 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v28 : TRef sig ⟨S100000x128, .f32⟩) main_call0.v7 main_call0.call1.v0 select,
    TRef.nullary main_call1.cst (constant S_ .f32 0x00000000#32),
    TRef.unary main_call1.cst main_call1.v0 (broadcastInDim S100000x128 ![] bcast_S_S100000x128),
    TRef.binary (.of main_v29 : TRef sig ⟨S100000x128, .f32⟩) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v29 : TRef sig ⟨S100000x128, .f32⟩) main_call1.v3 mulf,
    TRef.ternary main_call1.v1 (.of main_v29 : TRef sig ⟨S100000x128, .f32⟩) main_call1.v3 main_call1.call0.v0 select,
    nullary main_c_5 (constantI S_ 32 0#32),
    unary main_c_5 main_v31 (broadcastInDim S1600000 ![] bcast_S_S1600000 : (⟨S_, .i32⟩ : BufTy).Contents (Elt F) → (⟨S1600000, .i32⟩ : BufTy).Contents (Elt F)),
    binary main_arg1 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v33 (broadcastInDim S1600000 ![] bcast_S_S1600000 : (⟨S_, .i32⟩ : BufTy).Contents (Elt F) → (⟨S1600000, .i32⟩ : BufTy).Contents (Elt F)),
    binary main_arg1 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_arg1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v30 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v38 (broadcastInDim S100000x128 ![] bcast_S_S100000x128 : (⟨S_, .f32⟩ : BufTy).Contents (Elt F) → (⟨S100000x128, .f32⟩ : BufTy).Contents (Elt F)),
    unary main_arg2 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v8 main_v41 (broadcastInDim S100000x128 ![0, 1] bcast_S100000x1_S100000x128_0_1 : (⟨S100000x1, .f32⟩ : BufTy).Contents (Elt F) → (⟨S100000x128, .f32⟩ : BufTy).Contents (Elt F)),
    binary main_v40 main_v41 main_v42 (mulf : (⟨S100000x128, .f32⟩ : BufTy).Contents (Elt F) → (⟨S100000x128, .f32⟩ : BufTy).Contents (Elt F) → (⟨S100000x128, .f32⟩ : BufTy).Contents (Elt F)),
    unary main_arg7 main_v43 ((transpose S128x128 [1, 0] · transposes_S128x128_S128x128_1_0) : (⟨S128x128, .f32⟩ : BufTy).Contents (Elt F) → (⟨S128x128, .f32⟩ : BufTy).Contents (Elt F)),
    binary main_v30 main_v43 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v45 ((transpose S128x128 [1, 0] · transposes_S128x128_S128x128_1_0) : (⟨S128x128, .f32⟩ : BufTy).Contents (Elt F) → (⟨S128x128, .f32⟩ : BufTy).Contents (Elt F)),
    binary main_v42 main_v45 main_v46 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    unary main_arg9 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)) ]

/-- The operations of @main's statements 61 … 91, in order: the second layer's bias added, `elu` (over `main_call2`)
    and `leaky_relu` (over `main_call3`), the per-group count and sum (two scatter-adds into 128 rows), the mean
    against a floor of one, the product with the transposed weight and bias, `leaky_relu_1` (seven over `main_call4`),
    and the last product and bias. -/
abbrev ops1 : List (HloOp τ sig (Elt F)) :=
  [ binary main_v47 main_v49 main_v50 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v50 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v50 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v50 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v50 : TRef sig ⟨S100000x128, .f32⟩) main_call2.v7 main_call2.call1.v0 select,
    TRef.nullary main_call3.cst (constant S_ .f32 0x00000000#32),
    TRef.unary main_call3.cst main_call3.v0 (broadcastInDim S100000x128 ![] bcast_S_S100000x128),
    TRef.binary (.of main_v51 : TRef sig ⟨S100000x128, .f32⟩) main_call3.v0 main_call3.v1 (cmpf .oge),
    TRef.nullary main_call3.cst_0 (constant S_ .f32 0x3C23D70A#32),
    TRef.unary main_call3.cst_0 main_call3.v2 (broadcastInDim S100000x128 ![] bcast_S_S100000x128),
    TRef.binary main_call3.v2 (.of main_v51 : TRef sig ⟨S100000x128, .f32⟩) main_call3.v3 mulf,
    TRef.ternary main_call3.v1 (.of main_v51 : TRef sig ⟨S100000x128, .f32⟩) main_call3.v3 main_call3.call0.v0 select,
    nullary main_cst_8 (constant S_ .f32 0x3F800000#32),
    unary main_cst_8 main_v53 (broadcastInDim S100000 ![] bcast_S_S100000 : (⟨S_, .f32⟩ : BufTy).Contents (Elt F) → (⟨S100000, .f32⟩ : BufTy).Contents (Elt F)),
    nullary main_cst_9 (constant S_ .f32 0x00000000#32),
    unary main_cst_9 main_v54 (broadcastInDim S128 ![] bcast_S_S128 : (⟨S_, .f32⟩ : BufTy).Contents (Elt F) → (⟨S128, .f32⟩ : BufTy).Contents (Elt F)),
    unary main_arg3 main_v55 (broadcastInDim S100000x1 ![0] bcast_S100000_S100000x1_0 : (⟨S100000, .i32⟩ : BufTy).Contents (Elt F) → (⟨S100000x1, .i32⟩ : BufTy).Contents (Elt F)),
    ternary main_v54 main_v55 main_v53 main_v56 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_10 (constant S_ .f32 0x00000000#32),
    unary main_cst_10 main_v57 (broadcastInDim S128x128 ![] bcast_S_S128x128 : (⟨S_, .f32⟩ : BufTy).Contents (Elt F) → (⟨S128x128, .f32⟩ : BufTy).Contents (Elt F)),
    unary main_arg3 main_v58 (broadcastInDim S100000x1 ![0] bcast_S100000_S100000x1_0 : (⟨S100000, .i32⟩ : BufTy).Contents (Elt F) → (⟨S100000x1, .i32⟩ : BufTy).Contents (Elt F)),
    ternary main_v57 main_v58 main_v52 main_v59 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    nullary main_cst_11 (constant S_ .f32 0x3F800000#32),
    unary main_cst_11 main_v60 (broadcastInDim S128 ![] bcast_S_S128 : (⟨S_, .f32⟩ : BufTy).Contents (Elt F) → (⟨S128, .f32⟩ : BufTy).Contents (Elt F)),
    binary main_v56 main_v60 main_v61 (maximumf : (⟨S128, .f32⟩ : BufTy).Contents (Elt F) → (⟨S128, .f32⟩ : BufTy).Contents (Elt F) → (⟨S128, .f32⟩ : BufTy).Contents (Elt F)),
    unary main_v61 main_v62 (broadcastInDim S128x1 ![0] bcast_S128_S128x1_0 : (⟨S128, .f32⟩ : BufTy).Contents (Elt F) → (⟨S128x1, .f32⟩ : BufTy).Contents (Elt F)),
    unary main_v62 main_v63 (broadcastInDim S128x128 ![0, 1] bcast_S128x1_S128x128_0_1 : (⟨S128x1, .f32⟩ : BufTy).Contents (Elt F) → (⟨S128x128, .f32⟩ : BufTy).Contents (Elt F)),
    binary main_v59 main_v63 main_v64 (Host.divf : (⟨S128x128, .f32⟩ : BufTy).Contents (Elt F) → (⟨S128x128, .f32⟩ : BufTy).Contents (Elt F) → (⟨S128x128, .f32⟩ : BufTy).Contents (Elt F)),
    unary main_arg10 main_v65 ((transpose S128x128 [1, 0] · transposes_S128x128_S128x128_1_0) : (⟨S128x128, .f32⟩ : BufTy).Contents (Elt F) → (⟨S128x128, .f32⟩ : BufTy).Contents (Elt F)),
    binary main_v64 main_v65 main_v66 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg11 main_v67 (broadcastInDim S1x128 ![1] bcast_S128_S1x128_1 : (⟨S128, .f32⟩ : BufTy).Contents (Elt F) → (⟨S1x128, .f32⟩ : BufTy).Contents (Elt F)),
    unary main_v67 main_v68 (broadcastInDim S128x128 ![0, 1] bcast_S1x128_S128x128_0_1 : (⟨S1x128, .f32⟩ : BufTy).Contents (Elt F) → (⟨S128x128, .f32⟩ : BufTy).Contents (Elt F)),
    binary main_v66 main_v68 main_v69 (addf : (⟨S128x128, .f32⟩ : BufTy).Contents (Elt F) → (⟨S128x128, .f32⟩ : BufTy).Contents (Elt F) → (⟨S128x128, .f32⟩ : BufTy).Contents (Elt F)),
    TRef.nullary main_call4.cst (constant S_ .f32 0x00000000#32),
    TRef.unary main_call4.cst main_call4.v0 (broadcastInDim S128x128 ![] bcast_S_S128x128),
    TRef.binary (.of main_v69 : TRef sig ⟨S128x128, .f32⟩) main_call4.v0 main_call4.v1 (cmpf .oge),
    TRef.nullary main_call4.cst_0 (constant S_ .f32 0x3C23D70A#32),
    TRef.unary main_call4.cst_0 main_call4.v2 (broadcastInDim S128x128 ![] bcast_S_S128x128),
    TRef.binary main_call4.v2 (.of main_v69 : TRef sig ⟨S128x128, .f32⟩) main_call4.v3 mulf,
    TRef.ternary main_call4.v1 (.of main_v69 : TRef sig ⟨S128x128, .f32⟩) main_call4.v3 main_call4.call0.v0 select,
    unary main_arg12 main_v71 ((transpose S128x10 [1, 0] · transposes_S10x128_S128x10_1_0) : (⟨S10x128, .f32⟩ : BufTy).Contents (Elt F) → (⟨S128x10, .f32⟩ : BufTy).Contents (Elt F)),
    binary main_v70 main_v71 main_v72 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg13 main_v73 (broadcastInDim S1x10 ![1] bcast_S10_S1x10_1 : (⟨S10, .f32⟩ : BufTy).Contents (Elt F) → (⟨S1x10, .f32⟩ : BufTy).Contents (Elt F)),
    unary main_v73 main_v74 (broadcastInDim S128x10 ![0, 1] bcast_S1x10_S128x10_0_1 : (⟨S1x10, .f32⟩ : BufTy).Contents (Elt F) → (⟨S128x10, .f32⟩ : BufTy).Contents (Elt F)),
    binary main_v72 main_v74 main_v75 (addf : (⟨S128x10, .f32⟩ : BufTy).Contents (Elt F) → (⟨S128x10, .f32⟩ : BufTy).Contents (Elt F) → (⟨S128x10, .f32⟩ : BufTy).Contents (Elt F)) ]

/-- @main's one hundred and thirty-six operations, in order. -/
abbrev ops : List (HloOp τ sig (Elt F)) := ops0 ++ ops1

set_option maxRecDepth 8192 in
set_option maxHeartbeats 4000000 in
/-- The first window is that straight line: `elu`'s, `leaky_relu`'s, `_where`'s and `_where_0`'s definitions unfolded
    at their calls, both sides are one chain of `hlo` steps once sequencing is reassociated. -/
theorem part0_eq (c : Dev nD) : main_part0 (F := F) c = seq ops0 := by
  simp only [main_part0, fn_elu.body, fn_leaky_relu.body, fn_where.body, fn_where_0.body, seq, bind_assoc, pure_bind]
  rfl

set_option maxRecDepth 8192 in
set_option maxHeartbeats 4000000 in
/-- The second window likewise, with `leaky_relu_1`'s and `_where_2`'s definitions besides (it ends in the return, as
    `seq` does: the rewriting already closes it). -/
theorem part1_eq (c : Dev nD) : main_part1 (F := F) c = seq ops1 := by
  simp only [main_part1, fn_elu.body, fn_leaky_relu.body, fn_leaky_relu_1.body, fn_where.body, fn_where_0.body,
    fn_where_2.body, seq, bind_assoc, pure_bind]

/-- @main runs its two windows in order, which is the concatenated list run as one line. -/
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., binary_bufs_sub .., unary_bufs_sub .., binary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    binary_bufs_sub .., unary_bufs_sub .., binary_bufs_sub .., unary_bufs_sub .., binary_bufs_sub .., binary_bufs_sub ..,
    unary_bufs_sub .., unary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub ..⟩

/-- Every operation of the line touches TensorCore references only: an operation of the concatenation is one of a
    window's. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
set_option maxHeartbeats 4000000 in
/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefSpec.lean ====
/-
  The reference's result as ONE function of its fourteen argument arrays, written as a composition of
  named stages, each stage the host operations of the reference in program order.

  The model is a two-layer mean-aggregation graph network followed by a per-graph mean and a two-layer
  readout.  With  d(v) = 1 / max(#edges into v, 1),  a layer maps node features  h  to
      leaky( elu( h · Wsᵀ  +  (d ⊙ Σ_{e : dst e = v} h(src e)) · Wnᵀ  +  b ) ),
  where  elu x = x  for  x > 0  and  1 · expm1 x  otherwise, and  leaky x = x  for  x ≥ 0  and  c · x
  otherwise (c the literal 0x3C23D70A).  The pooled features are the per-graph sums divided by
  max(#nodes of the graph, 1); the readout is  leaky(hg · W₁ᵀ + b₁) · Wₒᵀ + bₒ.
-/
import proofs.«118931_j30133490549162_2_alg».proof.ReferenceIdeal

noncomputable section

namespace Cert.ReferenceIdeal.RefSpec

open Cert.ReferenceIdeal Idealize.ShloMosaic Idealize.SL.Sem

variable {F : FTy → Type} [FloatOps F] [Facts₀]
open Facts₀

/-- The reciprocal in-degree of every node: one over the larger of one and the number of edges whose
    target is the node (a scatter-add of ones over the edges' targets). -/
def invDeg (dst : (⟨S1600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The edges' source words as gather indices: a negative word has the number of nodes added, and the
    vector becomes a one-column matrix. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The sum, over the edges into a node, of the source node's feature row. -/
def neighSum (h : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (srcIdx src))

/-- The affine part of a layer: h · Wsᵀ + (nsum scaled row by row by d) · Wnᵀ + b. -/
def denseH (h nsum : (⟨S100000x128, .f32⟩ : BufTy).Contents (Elt F)) (d : (⟨S100000, .f32⟩ : BufTy).Contents (Elt F))
    (Ws Wn : (⟨S128x128, .f32⟩ : BufTy).Contents (Elt F)) (b : (⟨S128, .f32⟩ : BufTy).Contents (Elt F)) :
    (⟨S100000x128, .f32⟩ : BufTy).Contents (Elt F) :=
  addf
    (addf
      (Host.dotGeneral dot_S100000x128_S128x128_S100000x128_1_0_0_1_n_n none h
        (transpose S128x128 [1, 0] Ws transposes_S128x128_S128x128_1_0))
      (Host.dotGeneral dot_S100000x128_S128x128_S100000x128_1_0_0_1_n_n none
        (mulf nsum (broadcastInDim S100000x128 ![0, 1] bcast_S100000x1_S100000x128_0_1
          (broadcastInDim S100000x1 ![0] bcast_S100000_S100000x1_0 d)))
        (transpose S128x128 [1, 0] Wn transposes_S128x128_S128x128_1_0)))
    (broadcastInDim S100000x128 ![0, 1] bcast_S1x128_S100000x128_0_1 (broadcastInDim S1x128 ![1] bcast_S128_S1x128_1 b))

/-- elu, as the reference spells it: x where x > 0, else one times expm1 of (zero where x > 0, else x). -/
def eluH (x : (⟨S100000x128, .f32⟩ : BufTy).Contents (Elt F)) : (⟨S100000x128, .f32⟩ : BufTy).Contents (Elt F) :=
  select (cmpf .ogt x (broadcastInDim S100000x128 ![] bcast_S_S100000x128 (constant S_ .f32 0x00000000#32))) x
    (mulf (broadcastInDim S100000x128 ![] bcast_S_S100000x128 (constant S_ .f32 0x3F800000#32))
      (Host.expm1
        (select (cmpf .ogt x (broadcastInDim S100000x128 ![] bcast_S_S100000x128 (constant S_ .f32 0x00000000#32)))
          (broadcastInDim S100000x128 ![] bcast_S_S100000x128 (id (constant S_ .f32 0x00000000#32))) x)))

/-- leaky relu on node features: x where x ≥ 0, else the literal slope times x. -/
def leakyH (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (constant S_ .f32 0x3C23D70A#32)) x)

/-- One layer on node features h. -/
def layerH (h : (⟨S100000x128, .f32⟩ : BufTy).Contents (Elt F)) (src dst : (⟨S1600000, .i32⟩ : BufTy).Contents (Elt F))
    (Ws Wn : (⟨S128x128, .f32⟩ : BufTy).Contents (Elt F)) (b : (⟨S128, .f32⟩ : BufTy).Contents (Elt F)) :
    (⟨S100000x128, .f32⟩ : BufTy).Contents (Elt F) :=
  leakyH (eluH (denseH h (neighSum h src dst) (invDeg dst) Ws Wn b))

/-- The per-graph mean of node features: the per-graph sums over the larger of one and the node count. -/
def poolH (h : (⟨S100000x128, .f32⟩ : BufTy).Contents (Elt F)) (ng : (⟨S100000, .i32⟩ : BufTy).Contents (Elt F)) :
    (⟨S128x128, .f32⟩ : BufTy).Contents (Elt F) :=
  Host.divf
    (Host.scatterAdd scatter_S128x128_S100000x1_S100000x128_1_0_0_1
      (broadcastInDim S128x128 ![] bcast_S_S128x128 (constant S_ .f32 0x00000000#32))
      (broadcastInDim S100000x1 ![0] bcast_S100000_S100000x1_0 ng) h)
    (broadcastInDim S128x128 ![0, 1] bcast_S128x1_S128x128_0_1
      (broadcastInDim S128x1 ![0] bcast_S128_S128x1_0
        (maximumf
          (Host.scatterAdd scatter_S128_S100000x1_S100000_n_0_0_1
            (broadcastInDim S128 ![] bcast_S_S128 (constant S_ .f32 0x00000000#32))
            (broadcastInDim S100000x1 ![0] bcast_S100000_S100000x1_0 ng)
            (broadcastInDim S100000 ![] bcast_S_S100000 (constant S_ .f32 0x3F800000#32)))
          (broadcastInDim S128 ![] bcast_S_S128 (constant S_ .f32 0x3F800000#32)))))

/-- leaky relu on pooled features. -/
def leakyG (x : (⟨S128x128, .f32⟩ : BufTy).Contents (Elt F)) : (⟨S128x128, .f32⟩ : BufTy).Contents (Elt F) :=
  select (cmpf .oge x (broadcastInDim S128x128 ![] bcast_S_S128x128 (constant S_ .f32 0x00000000#32))) x
    (mulf (broadcastInDim S128x128 ![] bcast_S_S128x128 (constant S_ .f32 0x3C23D70A#32)) x)

/-- The readout: leaky(hg · W₁ᵀ + b₁) · Wₒᵀ + bₒ. -/
def readoutH (hg W1 : (⟨S128x128, .f32⟩ : BufTy).Contents (Elt F)) (b1 : (⟨S128, .f32⟩ : BufTy).Contents (Elt F))
    (Wo : (⟨S10x128, .f32⟩ : BufTy).Contents (Elt F)) (bo : (⟨S10, .f32⟩ : BufTy).Contents (Elt F)) :
    (⟨S128x10, .f32⟩ : BufTy).Contents (Elt F) :=
  addf
    (Host.dotGeneral dot_S128x128_S128x10_S128x10_1_0_0_1_n_n none
      (leakyG
        (addf
          (Host.dotGeneral dot_S128x128_S128x128_S128x128_1_0_0_1_n_n none hg
            (transpose S128x128 [1, 0] W1 transposes_S128x128_S128x128_1_0))
          (broadcastInDim S128x128 ![0, 1] bcast_S1x128_S128x128_0_1 (broadcastInDim S1x128 ![1] bcast_S128_S1x128_1 b1))))
      (transpose S128x10 [1, 0] Wo transposes_S10x128_S128x10_1_0))
    (broadcastInDim S128x10 ![0, 1] bcast_S1x10_S128x10_0_1 (broadcastInDim S1x10 ![1] bcast_S10_S1x10_1 bo))

/-- The reference's result of its fourteen arguments, in the order of its signature. -/
def refOut (x : (⟨S100000x128, .f32⟩ : BufTy).Contents (Elt F)) (src dst : (⟨S1600000, .i32⟩ : BufTy).Contents (Elt F))
    (ng : (⟨S100000, .i32⟩ : BufTy).Contents (Elt F))
    (Ws0 Wn0 : (⟨S128x128, .f32⟩ : BufTy).Contents (Elt F)) (b0 : (⟨S128, .f32⟩ : BufTy).Contents (Elt F))
    (Ws1 Wn1 : (⟨S128x128, .f32⟩ : BufTy).Contents (Elt F)) (b1 : (⟨S128, .f32⟩ : BufTy).Contents (Elt F))
    (Wl : (⟨S128x128, .f32⟩ : BufTy).Contents (Elt F)) (bl : (⟨S128, .f32⟩ : BufTy).Contents (Elt F))
    (Wo : (⟨S10x128, .f32⟩ : BufTy).Contents (Elt F)) (bo : (⟨S10, .f32⟩ : BufTy).Contents (Elt F)) :
    (⟨S128x10, .f32⟩ : BufTy).Contents (Elt F) :=
  readoutH (poolH (layerH (layerH x src dst Ws0 Wn0 b0) src dst Ws1 Wn1 b1) ng) Wl bl Wo bo

end Cert.ReferenceIdeal.RefSpec

end
-- ==== Proof.RefOut.lean ====
/-
  What the reference's run leaves at its result and argument buffers.

  The fold of the one hundred and thirty-six operations over any contents `V` is read window by window. After the
  first window (`val1`) the buffers still read later hold: the second layer's two products summed (`main_v47`), that
  is  h₁ · Ws₁ᵀ + (d ⊙ Σ h₁(src)) · Wn₁ᵀ  with  h₁  the first layer's output (`RefSpec.layerH` of the argument arrays) and
  d  the reciprocal in-degree; the second layer's bias row broadcast over the nodes (`main_v49`); and the argument
  arrays, which no operation writes. After the second window (`val2`) the result buffer `main_v75` holds
  `RefSpec.refOut` of the fourteen argument arrays: the sum of the two buffers above is the second layer's affine part,
  then `elu`, `leaky_relu`, the per-graph mean and the readout, each the composition the specification names.
  Every equation is a computation: each operation's result at its own buffer is its function of its operands'
  contents, at any other buffer what was there; the scatter-adds, gathers and matrix products stay folded
  throughout (the equations never look inside them).
-/
import proofs.«118931_j30133490549162_2_alg».proof.Proof.RefRun
import proofs.«118931_j30133490549162_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of two lines run in order is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => after_app l₁ l₂ (op.result V)

/-! ## The buffers each window writes -/

/-- The buffers the first window's operations write, in order. -/
abbrev ops0_W : List (Ref sig .tc) :=
  [main_cst, main_v0, main_cst_0, main_v1, main_v2, main_v3, main_cst_1, main_v4,
   main_v5, main_cst_2, main_v6, main_v7, main_v8, main_c, main_v9, main_v10,
   main_c_3, main_v11, main_v12, main_v13, main_v14, main_v15, main_cst_4, main_v16,
   main_v17, main_v18, main_v19, main_v20, main_v21, main_v22, main_v23, main_v24,
   main_v25, main_v26, main_v27, main_v28, main_call0.cst.ref, main_call0.v0.ref, main_call0.v1.ref, main_call0.cst_0.ref,
   main_call0.v2.ref, main_call0.v3.ref, main_call0.cst_1.ref, main_call0.call0.v0.ref, main_call0.call0.v1.ref, main_call0.call0.v2.ref, main_call0.v5.ref, main_call0.cst_2.ref,
   main_call0.v6.ref, main_call0.v7.ref, main_call0.call1.v0.ref, main_call1.cst.ref, main_call1.v0.ref, main_call1.v1.ref, main_call1.cst_0.ref, main_call1.v2.ref,
   main_call1.v3.ref, main_call1.call0.v0.ref, main_c_5, main_v31, main_v32, main_c_6, main_v33, main_v34,
   main_v35, main_v36, main_v37, main_cst_7, main_v38, main_v39, main_v40, main_v41,
   main_v42, main_v43, main_v44, main_v45, main_v46, main_v47, main_v48, main_v49]

/-- The buffers the second window's operations write, in order. -/
abbrev ops1_W : List (Ref sig .tc) :=
  [main_v50, main_call2.cst.ref, main_call2.v0.ref, main_call2.v1.ref, main_call2.cst_0.ref, main_call2.v2.ref, main_call2.v3.ref, main_call2.cst_1.ref,
   main_call2.call0.v0.ref, main_call2.call0.v1.ref, main_call2.call0.v2.ref, main_call2.v5.ref, main_call2.cst_2.ref, main_call2.v6.ref, main_call2.v7.ref, main_call2.call1.v0.ref,
   main_call3.cst.ref, main_call3.v0.ref, main_call3.v1.ref, main_call3.cst_0.ref, main_call3.v2.ref, main_call3.v3.ref, main_call3.call0.v0.ref, main_cst_8,
   main_v53, main_cst_9, main_v54, main_v55, main_v56, main_cst_10, main_v57, main_v58,
   main_v59, main_cst_11, main_v60, main_v61, main_v62, main_v63, main_v64, main_v65,
   main_v66, main_v67, main_v68, main_v69, main_call4.cst.ref, main_call4.v0.ref, main_call4.v1.ref, main_call4.cst_0.ref,
   main_call4.v2.ref, main_call4.v3.ref, main_call4.call0.v0.ref, main_v71, main_v72, main_v73, main_v74, main_v75]

set_option maxRecDepth 8192 in
theorem ops0_writes : (ops0 : List (HloOp τ sig (Elt F))).Forall fun op => op.writes ⊆ (ops0_W.map (Proc.devRef (τ := τ) .tc)).toFinset := by
  simp only [List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

set_option maxRecDepth 8192 in
theorem ops1_writes : (ops1 : List (HloOp τ sig (Elt F))).Forall fun op => op.writes ⊆ (ops1_W.map (Proc.devRef (τ := τ) .tc)).toFinset := by
  simp only [List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-! ## After the first window -/

/-- The device's buffer contents after the first window, from contents `V0`. -/
def val1 (V0 : Valuation τ sig (Elt F)) : Valuation τ sig (Elt F) := after ops0 V0

/-- A buffer the first window does not write keeps its contents through it. -/
theorem val1_keep (V0 : Valuation τ sig (Elt F)) (r : Ref sig .tc) (h : r ∉ ops0_W) :
    val1 V0 (Proc.devRef .tc r) = V0 (Proc.devRef .tc r) :=
  after_of_writes_sub ops0 _ ops0_writes h

theorem val1_arg0 (V0 : Valuation τ sig (Elt F)) : val1 V0 (no_index (Proc.devRef .tc main_arg0)) = V0 (Proc.devRef .tc main_arg0) :=
  val1_keep V0 main_arg0 (by decide)
theorem val1_arg1 (V0 : Valuation τ sig (Elt F)) : val1 V0 (no_index (Proc.devRef .tc main_arg1)) = V0 (Proc.devRef .tc main_arg1) :=
  val1_keep V0 main_arg1 (by decide)
theorem val1_arg2 (V0 : Valuation τ sig (Elt F)) : val1 V0 (no_index (Proc.devRef .tc main_arg2)) = V0 (Proc.devRef .tc main_arg2) :=
  val1_keep V0 main_arg2 (by decide)
theorem val1_arg3 (V0 : Valuation τ sig (Elt F)) : val1 V0 (no_index (Proc.devRef .tc main_arg3)) = V0 (Proc.devRef .tc main_arg3) :=
  val1_keep V0 main_arg3 (by decide)
theorem val1_arg4 (V0 : Valuation τ sig (Elt F)) : val1 V0 (no_index (Proc.devRef .tc main_arg4)) = V0 (Proc.devRef .tc main_arg4) :=
  val1_keep V0 main_arg4 (by decide)
theorem val1_arg5 (V0 : Valuation τ sig (Elt F)) : val1 V0 (no_index (Proc.devRef .tc main_arg5)) = V0 (Proc.devRef .tc main_arg5) :=
  val1_keep V0 main_arg5 (by decide)
theorem val1_arg6 (V0 : Valuation τ sig (Elt F)) : val1 V0 (no_index (Proc.devRef .tc main_arg6)) = V0 (Proc.devRef .tc main_arg6) :=
  val1_keep V0 main_arg6 (by decide)
theorem val1_arg7 (V0 : Valuation τ sig (Elt F)) : val1 V0 (no_index (Proc.devRef .tc main_arg7)) = V0 (Proc.devRef .tc main_arg7) :=
  val1_keep V0 main_arg7 (by decide)
theorem val1_arg8 (V0 : Valuation τ sig (Elt F)) : val1 V0 (no_index (Proc.devRef .tc main_arg8)) = V0 (Proc.devRef .tc main_arg8) :=
  val1_keep V0 main_arg8 (by decide)
theorem val1_arg9 (V0 : Valuation τ sig (Elt F)) : val1 V0 (no_index (Proc.devRef .tc main_arg9)) = V0 (Proc.devRef .tc main_arg9) :=
  val1_keep V0 main_arg9 (by decide)
theorem val1_arg10 (V0 : Valuation τ sig (Elt F)) : val1 V0 (no_index (Proc.devRef .tc main_arg10)) = V0 (Proc.devRef .tc main_arg10) :=
  val1_keep V0 main_arg10 (by decide)
theorem val1_arg11 (V0 : Valuation τ sig (Elt F)) : val1 V0 (no_index (Proc.devRef .tc main_arg11)) = V0 (Proc.devRef .tc main_arg11) :=
  val1_keep V0 main_arg11 (by decide)
theorem val1_arg12 (V0 : Valuation τ sig (Elt F)) : val1 V0 (no_index (Proc.devRef .tc main_arg12)) = V0 (Proc.devRef .tc main_arg12) :=
  val1_keep V0 main_arg12 (by decide)
theorem val1_arg13 (V0 : Valuation τ sig (Elt F)) : val1 V0 (no_index (Proc.devRef .tc main_arg13)) = V0 (Proc.devRef .tc main_arg13) :=
  val1_keep V0 main_arg13 (by decide)

/-- The first layer's output features, of the argument arrays' contents. -/
abbrev h1 (V0 : Valuation τ sig (Elt F)) : (⟨S100000x128, .f32⟩ : BufTy).Contents (Elt F) :=
  RefSpec.layerH (V0 (main_arg0 : DevRef τ sig)) (V0 (main_arg1 : DevRef τ sig)) (V0 (main_arg2 : DevRef τ sig)) (V0 (main_arg4 : DevRef τ sig)) (V0 (main_arg5 : DevRef τ sig)) (V0 (main_arg6 : DevRef τ sig))

attribute [local irreducible] Host.scatterAdd Host.gather in
set_option maxRecDepth 8192 in
set_option maxHeartbeats 8000000 in
/-- The second layer's two products, summed:  h₁ · Ws₁ᵀ + (d ⊙ Σ h₁(src)) · Wn₁ᵀ. -/
theorem val1_v47 (V0 : Valuation τ sig (Elt F)) : val1 V0 (no_index (Proc.devRef .tc main_v47)) =
    addf
      (Host.dotGeneral dot_S100000x128_S128x128_S100000x128_1_0_0_1_n_n none (h1 V0)
        (transpose S128x128 [1, 0] (V0 (main_arg7 : DevRef τ sig)) transposes_S128x128_S128x128_1_0))
      (Host.dotGeneral dot_S100000x128_S128x128_S100000x128_1_0_0_1_n_n none
        (mulf (RefSpec.neighSum (h1 V0) (V0 (main_arg1 : DevRef τ sig)) (V0 (main_arg2 : DevRef τ sig)))
          (broadcastInDim S100000x128 ![0, 1] bcast_S100000x1_S100000x128_0_1
            (broadcastInDim S100000x1 ![0] bcast_S100000_S100000x1_0 (RefSpec.invDeg (V0 (main_arg2 : DevRef τ sig))))))
        (transpose S128x128 [1, 0] (V0 (main_arg8 : DevRef τ sig)) transposes_S128x128_S128x128_1_0)) := by
  unfold val1
  simp only [ops0]
  after_results_simp
  rfl

set_option maxRecDepth 8192 in
set_option maxHeartbeats 8000000 in
/-- The second layer's bias row, broadcast over the nodes. -/
theorem val1_v49 (V0 : Valuation τ sig (Elt F)) : val1 V0 (no_index (Proc.devRef .tc main_v49)) =
    broadcastInDim S100000x128 ![0, 1] bcast_S1x128_S100000x128_0_1 (broadcastInDim S1x128 ![1] bcast_S128_S1x128_1 (V0 (main_arg9 : DevRef τ sig))) := by
  unfold val1
  simp only [ops0]
  after_results_simp

/-! ## After the second window -/

/-- The device's buffer contents after both windows, from contents `V0`. -/
def val2 (V0 : Valuation τ sig (Elt F)) : Valuation τ sig (Elt F) := after ops1 (val1 V0)

/-- A buffer the second window does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h

theorem val2_arg0 (V0 : Valuation τ sig (Elt F)) : val2 V0 (no_index (Proc.devRef .tc main_arg0)) = V0 (Proc.devRef .tc main_arg0) :=
  (val2_keep V0 main_arg0 (by decide)).trans (val1_arg0 V0)
theorem val2_arg1 (V0 : Valuation τ sig (Elt F)) : val2 V0 (no_index (Proc.devRef .tc main_arg1)) = V0 (Proc.devRef .tc main_arg1) :=
  (val2_keep V0 main_arg1 (by decide)).trans (val1_arg1 V0)
theorem val2_arg2 (V0 : Valuation τ sig (Elt F)) : val2 V0 (no_index (Proc.devRef .tc main_arg2)) = V0 (Proc.devRef .tc main_arg2) :=
  (val2_keep V0 main_arg2 (by decide)).trans (val1_arg2 V0)
theorem val2_arg3 (V0 : Valuation τ sig (Elt F)) : val2 V0 (no_index (Proc.devRef .tc main_arg3)) = V0 (Proc.devRef .tc main_arg3) :=
  (val2_keep V0 main_arg3 (by decide)).trans (val1_arg3 V0)
theorem val2_arg4 (V0 : Valuation τ sig (Elt F)) : val2 V0 (no_index (Proc.devRef .tc main_arg4)) = V0 (Proc.devRef .tc main_arg4) :=
  (val2_keep V0 main_arg4 (by decide)).trans (val1_arg4 V0)
theorem val2_arg5 (V0 : Valuation τ sig (Elt F)) : val2 V0 (no_index (Proc.devRef .tc main_arg5)) = V0 (Proc.devRef .tc main_arg5) :=
  (val2_keep V0 main_arg5 (by decide)).trans (val1_arg5 V0)
theorem val2_arg6 (V0 : Valuation τ sig (Elt F)) : val2 V0 (no_index (Proc.devRef .tc main_arg6)) = V0 (Proc.devRef .tc main_arg6) :=
  (val2_keep V0 main_arg6 (by decide)).trans (val1_arg6 V0)
theorem val2_arg7 (V0 : Valuation τ sig (Elt F)) : val2 V0 (no_index (Proc.devRef .tc main_arg7)) = V0 (Proc.devRef .tc main_arg7) :=
  (val2_keep V0 main_arg7 (by decide)).trans (val1_arg7 V0)
theorem val2_arg8 (V0 : Valuation τ sig (Elt F)) : val2 V0 (no_index (Proc.devRef .tc main_arg8)) = V0 (Proc.devRef .tc main_arg8) :=
  (val2_keep V0 main_arg8 (by decide)).trans (val1_arg8 V0)
theorem val2_arg9 (V0 : Valuation τ sig (Elt F)) : val2 V0 (no_index (Proc.devRef .tc main_arg9)) = V0 (Proc.devRef .tc main_arg9) :=
  (val2_keep V0 main_arg9 (by decide)).trans (val1_arg9 V0)
theorem val2_arg10 (V0 : Valuation τ sig (Elt F)) : val2 V0 (no_index (Proc.devRef .tc main_arg10)) = V0 (Proc.devRef .tc main_arg10) :=
  (val2_keep V0 main_arg10 (by decide)).trans (val1_arg10 V0)
theorem val2_arg11 (V0 : Valuation τ sig (Elt F)) : val2 V0 (no_index (Proc.devRef .tc main_arg11)) = V0 (Proc.devRef .tc main_arg11) :=
  (val2_keep V0 main_arg11 (by decide)).trans (val1_arg11 V0)
theorem val2_arg12 (V0 : Valuation τ sig (Elt F)) : val2 V0 (no_index (Proc.devRef .tc main_arg12)) = V0 (Proc.devRef .tc main_arg12) :=
  (val2_keep V0 main_arg12 (by decide)).trans (val1_arg12 V0)
theorem val2_arg13 (V0 : Valuation τ sig (Elt F)) : val2 V0 (no_index (Proc.devRef .tc main_arg13)) = V0 (Proc.devRef .tc main_arg13) :=
  (val2_keep V0 main_arg13 (by decide)).trans (val1_arg13 V0)

attribute [local irreducible] Host.scatterAdd Host.gather in
set_option maxRecDepth 8192 in
set_option maxHeartbeats 8000000 in
/-- The result buffer holds the specification's term of the fourteen argument arrays. -/
theorem val2_v75 (V0 : Valuation τ sig (Elt F)) : val2 V0 (no_index (Proc.devRef .tc main_v75)) =
    RefSpec.refOut (V0 (main_arg0 : DevRef τ sig)) (V0 (main_arg1 : DevRef τ sig)) (V0 (main_arg2 : DevRef τ sig)) (V0 (main_arg3 : DevRef τ sig)) (V0 (main_arg4 : DevRef τ sig)) (V0 (main_arg5 : DevRef τ sig)) (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig)) (V0 (main_arg12 : DevRef τ sig)) (V0 (main_arg13 : DevRef τ sig)) := by
  unfold val2
  simp only [ops1]
  after_results_simp
  simp only [val1_v47, val1_v49, val1_arg3, val1_arg10, val1_arg11, val1_arg12, val1_arg13]
  rfl

/-- The fold of the whole line is the fold window by window. -/
theorem after_ops (V0 : Valuation τ sig (Elt F)) : after ops V0 = val2 V0 := by
  simp only [ops, after_app]
  rfl

/-! ## The result and the arguments -/

/-- The result buffer after the run: the specification's function of the argument arrays' contents. -/
theorem out_eq (V : Valuation τ sig (Elt F)) :
    after ops V (main_v75 : DevRef τ sig)
      = RefSpec.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [after_ops]
  exact val2_v75 V

theorem arg0_eq (V : Valuation τ sig (Elt F)) :
    after ops V (main_arg0 : DevRef τ sig) = V (main_arg0 : DevRef τ sig) := by
  rw [after_ops]
  exact val2_arg0 V

theorem arg1_eq (V : Valuation τ sig (Elt F)) :
    after ops V (main_arg1 : DevRef τ sig) = V (main_arg1 : DevRef τ sig) := by
  rw [after_ops]
  exact val2_arg1 V

theorem arg2_eq (V : Valuation τ sig (Elt F)) :
    after ops V (main_arg2 : DevRef τ sig) = V (main_arg2 : DevRef τ sig) := by
  rw [after_ops]
  exact val2_arg2 V

theorem arg3_eq (V : Valuation τ sig (Elt F)) :
    after ops V (main_arg3 : DevRef τ sig) = V (main_arg3 : DevRef τ sig) := by
  rw [after_ops]
  exact val2_arg3 V

theorem arg4_eq (V : Valuation τ sig (Elt F)) :
    after ops V (main_arg4 : DevRef τ sig) = V (main_arg4 : DevRef τ sig) := by
  rw [after_ops]
  exact val2_arg4 V

theorem arg5_eq (V : Valuation τ sig (Elt F)) :
    after ops V (main_arg5 : DevRef τ sig) = V (main_arg5 : DevRef τ sig) := by
  rw [after_ops]
  exact val2_arg5 V

theorem arg6_eq (V : Valuation τ sig (Elt F)) :
    after ops V (main_arg6 : DevRef τ sig) = V (main_arg6 : DevRef τ sig) := by
  rw [after_ops]
  exact val2_arg6 V

theorem arg7_eq (V : Valuation τ sig (Elt F)) :
    after ops V (main_arg7 : DevRef τ sig) = V (main_arg7 : DevRef τ sig) := by
  rw [after_ops]
  exact val2_arg7 V

theorem arg8_eq (V : Valuation τ sig (Elt F)) :
    after ops V (main_arg8 : DevRef τ sig) = V (main_arg8 : DevRef τ sig) := by
  rw [after_ops]
  exact val2_arg8 V

theorem arg9_eq (V : Valuation τ sig (Elt F)) :
    after ops V (main_arg9 : DevRef τ sig) = V (main_arg9 : DevRef τ sig) := by
  rw [after_ops]
  exact val2_arg9 V

theorem arg10_eq (V : Valuation τ sig (Elt F)) :
    after ops V (main_arg10 : DevRef τ sig) = V (main_arg10 : DevRef τ sig) := by
  rw [after_ops]
  exact val2_arg10 V

theorem arg11_eq (V : Valuation τ sig (Elt F)) :
    after ops V (main_arg11 : DevRef τ sig) = V (main_arg11 : DevRef τ sig) := by
  rw [after_ops]
  exact val2_arg11 V

theorem arg12_eq (V : Valuation τ sig (Elt F)) :
    after ops V (main_arg12 : DevRef τ sig) = V (main_arg12 : DevRef τ sig) := by
  rw [after_ops]
  exact val2_arg12 V

theorem arg13_eq (V : Valuation τ sig (Elt F)) :
    after ops V (main_arg13 : DevRef τ sig) = V (main_arg13 : DevRef τ sig) := by
  rw [after_ops]
  exact val2_arg13 V

end Cert.ReferenceIdeal.RefRun

end
-- ==== Proof.RefBridge.lean ====
/-
  The reference's stages, read on the extended reals: a layer of the reference is the layer function of its
  arguments (the neighbour sums and the reciprocal in-degree kept as the host terms they are, the weights
  transposed, the bias read entry by entry), its readout the readout function, and so its result the readout
  of the per-graph mean of the second layer of the first layer of the input features.
-/
import proofs.«118931_j30133490549162_2_alg».proof.Proof.RefSpec
import proofs.«118931_j30133490549162_2_alg».proof.Proof.LibEluLayerHost
import proofs.«118931_j30133490549162_2_alg».proof.Proof.Gen.ReferenceIdeal

set_option maxRecDepth 16384

noncomputable section

namespace Cert.ReferenceIdeal.RefBridge

open Cert.ReferenceIdeal Cert.ReferenceIdeal.RefSpec Idealize.ShloMosaic Idealize.ShloMosaic.ValueIdx
open Facts₀

/-- A square weight matrix transposed. -/
abbrev tr (w : (⟨S128x128, .f32⟩ : BufTy).Contents (Elt Ideal)) : (⟨S128x128, .f32⟩ : BufTy).Contents (Elt Ideal) :=
  transpose S128x128 [1, 0] w transposes_S128x128_S128x128_1_0

/-- The output weights transposed. -/
abbrev trOut (w : (⟨S10x128, .f32⟩ : BufTy).Contents (Elt Ideal)) : (⟨S128x10, .f32⟩ : BufTy).Contents (Elt Ideal) :=
  transpose S128x10 [1, 0] w transposes_S10x128_S128x10_1_0

/-- A layer of the reference is the layer function of its arguments. -/
theorem layerH_eq (h : (⟨S100000x128, .f32⟩ : BufTy).Contents (Elt Ideal)) (src dst : (⟨S1600000, .i32⟩ : BufTy).Contents (Elt Ideal))
    (Ws Wn : (⟨S128x128, .f32⟩ : BufTy).Contents (Elt Ideal)) (b : (⟨S128, .f32⟩ : BufTy).Contents (Elt Ideal)) :
    layerH h src dst Ws Wn b
      = Cert.Sage.layer 100000 128 128 h (neighSum h src dst) (fun r => invDeg dst (ix1 r)) (tr Ws) (tr Wn)
          (fun q => b (ix1 q)) := by
  unfold layerH leakyH eluH denseH
  exact Cert.Sage.hform_eq h (neighSum h src dst) (invDeg dst) (tr Ws) (tr Wn) b _ _ _ _ _

/-- The readout of the reference is the readout function of its arguments. -/
theorem readoutH_eq (hg W1 : (⟨S128x128, .f32⟩ : BufTy).Contents (Elt Ideal)) (b1 : (⟨S128, .f32⟩ : BufTy).Contents (Elt Ideal)) (Wo : (⟨S10x128, .f32⟩ : BufTy).Contents (Elt Ideal))
    (bo : (⟨S10, .f32⟩ : BufTy).Contents (Elt Ideal)) :
    readoutH hg W1 b1 Wo bo
      = Cert.Sage.readout 128 128 128 10 hg (tr W1) (fun k => b1 (ix1 k)) (trOut Wo) (fun q => bo (ix1 q)) := by
  unfold readoutH leakyG
  exact Cert.Sage.hread_eq hg (tr W1) b1 (trOut Wo) bo _ _ _ _ _

/-- The first layer's output, as the layer function. -/
abbrev H1 (x : (⟨S100000x128, .f32⟩ : BufTy).Contents (Elt Ideal)) (src dst : (⟨S1600000, .i32⟩ : BufTy).Contents (Elt Ideal))
    (Ws0 Wn0 : (⟨S128x128, .f32⟩ : BufTy).Contents (Elt Ideal)) (b0 : (⟨S128, .f32⟩ : BufTy).Contents (Elt Ideal)) : (⟨S100000x128, .f32⟩ : BufTy).Contents (Elt Ideal) :=
  Cert.Sage.layer 100000 128 128 x (neighSum x src dst) (fun r => invDeg dst (ix1 r)) (tr Ws0) (tr Wn0) (fun q => b0 (ix1 q))

/-- The reference's result, as the readout of the pooled second layer. -/
theorem refOut_eq (x : (⟨S100000x128, .f32⟩ : BufTy).Contents (Elt Ideal)) (src dst : (⟨S1600000, .i32⟩ : BufTy).Contents (Elt Ideal)) (ng : (⟨S100000, .i32⟩ : BufTy).Contents (Elt Ideal))
    (Ws0 Wn0 : (⟨S128x128, .f32⟩ : BufTy).Contents (Elt Ideal)) (b0 : (⟨S128, .f32⟩ : BufTy).Contents (Elt Ideal))
    (Ws1 Wn1 : (⟨S128x128, .f32⟩ : BufTy).Contents (Elt Ideal)) (b1 : (⟨S128, .f32⟩ : BufTy).Contents (Elt Ideal))
    (Wl : (⟨S128x128, .f32⟩ : BufTy).Contents (Elt Ideal)) (bl : (⟨S128, .f32⟩ : BufTy).Contents (Elt Ideal)) (Wo : (⟨S10x128, .f32⟩ : BufTy).Contents (Elt Ideal)) (bo : (⟨S10, .f32⟩ : BufTy).Contents (Elt Ideal)) :
    refOut x src dst ng Ws0 Wn0 b0 Ws1 Wn1 b1 Wl bl Wo bo
      = Cert.Sage.readout 128 128 128 10
          (poolH (Cert.Sage.layer 100000 128 128 (H1 x src dst Ws0 Wn0 b0) (neighSum (H1 x src dst Ws0 Wn0 b0) src dst)
            (fun r => invDeg dst (ix1 r)) (tr Ws1) (tr Wn1) (fun q => b1 (ix1 q))) ng)
          (tr Wl) (fun k => bl (ix1 k)) (trOut Wo) (fun q => bo (ix1 q)) := by
  unfold refOut
  rw [readoutH_eq, layerH_eq, layerH_eq]

end Cert.ReferenceIdeal.RefBridge

end
-- ==== Proof.Bridge.lean ====
/-
  The two programs compute one function.

  The idealized kernel program's result is the readout of the pooled second layer with the host pieces in ITS
  spellings: the reciprocal in-degree as a one-column matrix made by a reshape, the bias rows made by reshapes,
  the neighbour rows gathered from a bf16 copy of the features.  The reference's is the same with the column
  and the rows made by broadcasts and the rows gathered from the features themselves.  On the extended reals a
  change of float format is the identity, so the gathers are one term; a reshape of a vector to a column and
  its broadcast to a column read the same entry at (r, 0), and likewise for a row at (0, q).  Nothing else
  differs: the scatter-adds, the transposes and the per-graph mean are the same operations of the same operands.
-/
import proofs.«118931_j30133490549162_2_alg».proof.Proof.KValue
import proofs.«118931_j30133490549162_2_alg».proof.Proof.RefBridge

set_option maxRecDepth 16384

noncomputable section

namespace Cert.Bridge

open Idealize.ShloMosaic Idealize.ShloMosaic.TcCoe Idealize.SL.Sem Idealize.ShloMosaic.ValueIdx
open Cert.LibLayout Cert.LibColumnRead

/-! ## The host pieces, kernel spelling against reference spelling -/

theorem invDeg_eq (d : (⟨Cert.KernelIdeal.S1600000, .i32⟩ : BufTy).Contents (Elt Ideal)) :
    Cert.KernelIdeal.KHost.invDeg (F := Ideal) d = Cert.ReferenceIdeal.RefSpec.invDeg (F := Ideal) d := rfl

theorem neighSum_eq (h : (⟨Cert.KernelIdeal.S100000x128, .f32⟩ : BufTy).Contents (Elt Ideal))
    (s d : (⟨Cert.KernelIdeal.S1600000, .i32⟩ : BufTy).Contents (Elt Ideal)) :
    Cert.KernelIdeal.KHost.neighSum (F := Ideal) h s d = Cert.ReferenceIdeal.RefSpec.neighSum (F := Ideal) h s d := rfl

theorem pool_eq (h : (⟨Cert.KernelIdeal.S100000x128, .f32⟩ : BufTy).Contents (Elt Ideal))
    (g : (⟨Cert.KernelIdeal.S100000, .i32⟩ : BufTy).Contents (Elt Ideal)) :
    Cert.KernelIdeal.KHost.pool (F := Ideal) h g = Cert.ReferenceIdeal.RefSpec.poolH (F := Ideal) h g := rfl

theorem tr_eq (w : (⟨Cert.KernelIdeal.S128x128, .f32⟩ : BufTy).Contents (Elt Ideal)) :
    Cert.KernelIdeal.KHost.tr (F := Ideal) w = Cert.ReferenceIdeal.RefBridge.tr w := rfl

theorem trOut_eq (w : (⟨Cert.KernelIdeal.S10x128, .f32⟩ : BufTy).Contents (Elt Ideal)) :
    Cert.KernelIdeal.KHost.trOut (F := Ideal) w = Cert.ReferenceIdeal.RefBridge.trOut w := rfl

/-- The reshaped column reads, at (r, 0), the vector's entry r. -/
theorem col_eq (d : (⟨Cert.KernelIdeal.S1600000, .i32⟩ : BufTy).Contents (Elt Ideal)) :
    (fun r : Fin 100000 => (Cert.KernelIdeal.KHost.invDegCol (F := Ideal) d : Cert.KernelIdeal.S100000x1.Idx → EReal) (ix2 r (0 : Fin 1)))
      = fun r => (Cert.ReferenceIdeal.RefSpec.invDeg (F := Ideal) d : Cert.ReferenceIdeal.S100000.Idx → EReal) (ix1 r) :=
  funext fun r => by
    unfold Cert.KernelIdeal.KHost.invDegCol
    rw [shapeCast_a_a1_apply (Cert.KernelIdeal.KHost.invDeg (F := Ideal) d) _ r (0 : Fin 1), invDeg_eq]

/-- The reshaped length-128 row reads, at (0, q), the vector's entry q. -/
theorem row_eq (b : (⟨Cert.KernelIdeal.S128, .f32⟩ : BufTy).Contents (Elt Ideal)) :
    (fun q : Fin 128 => (Cert.KernelIdeal.KHost.row (F := Ideal) b : Cert.KernelIdeal.S1x128.Idx → EReal) (ix2 (0 : Fin 1) q))
      = fun q => (b : Cert.KernelIdeal.S128.Idx → EReal) (ix1 q) :=
  funext fun q => by
    unfold Cert.KernelIdeal.KHost.row
    exact row_cast_apply b _ (0 : Fin 1) q

/-- The reshaped length-10 row reads, at (0, q), the vector's entry q. -/
theorem rowOut_eq (b : (⟨Cert.KernelIdeal.S10, .f32⟩ : BufTy).Contents (Elt Ideal)) :
    (fun q : Fin 10 => (Cert.KernelIdeal.KHost.rowOut (F := Ideal) b : Cert.KernelIdeal.S1x10.Idx → EReal) (ix2 (0 : Fin 1) q))
      = fun q => (b : Cert.KernelIdeal.S10.Idx → EReal) (ix1 q) :=
  funext fun q => by
    unfold Cert.KernelIdeal.KHost.rowOut
    exact row_cast_apply b _ (0 : Fin 1) q

/-! ## The results -/

/-- The idealized kernel program's result is the reference's result of the same argument arrays. -/
theorem out_eq_refOut (m : (ℓ : Loc Cert.KernelIdeal.nD Cert.KernelIdeal.τ Cert.KernelIdeal.sig) → Buf (Elt Ideal) ℓ)
    (c : Dev Cert.KernelIdeal.nD) :
    Cert.KernelIdeal.KValue.out m c
      = Cert.ReferenceIdeal.RefSpec.refOut (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10))
          (m ((c : Thread Cert.KernelIdeal.nD Cert.KernelIdeal.τ).loc Cert.KernelIdeal.main_arg11))
          (m ((c : Thread Cert.KernelIdeal.nD Cert.KernelIdeal.τ).loc Cert.KernelIdeal.main_arg12))
          (m ((c : Thread Cert.KernelIdeal.nD Cert.KernelIdeal.τ).loc Cert.KernelIdeal.main_arg13)) := by
  rw [Cert.ReferenceIdeal.RefBridge.refOut_eq]
  unfold Cert.KernelIdeal.KValue.out Cert.KernelIdeal.KValue.H2 Cert.KernelIdeal.KValue.H1
  rw [col_eq, row_eq, row_eq, row_eq, rowOut_eq]
  simp only [neighSum_eq, pool_eq, tr_eq, trOut_eq]

end Cert.Bridge

end
-- ==== Proof.lean ====
/-
  A two-layer mean-aggregation graph network with a per-graph mean and a two-layer readout: the program that
  computes each layer a block of 10000 node rows at a time, and the readout in one block, against the program
  that computes everything on whole arrays.

  With d(v) = 1 / max(in-degree of v, 1), a layer is
      leak( elu( h · Wsᵀ + (d ⊙ Σ_{edges into v} h(source)) · Wnᵀ + b ) ),
  the pooled features are the per-graph sums over max(node count, 1), and the readout is
  leak(hg · W₁ᵀ + b₁) · Wₒᵀ + bₒ.  On the extended reals the two programs compute the same function of the
  argument arrays.  An entry of a layer depends on its own row of the features, of the neighbour sums and of d
  only, so ten row blocks make the whole-array layer.  The block program's  exp x − 1  and the whole-array
  program's  1 · expm1 x  are one function (expm1 y is exp y − 1 on every extended real, and 1 · y = y).  A
  change of float format is the identity, so gathering rows from a bf16 copy is gathering them from the
  features.  A reshape and a broadcast that lay a vector into a column or a row read the same entries.  The
  scatter-adds, gathers and divisions are the same operations of the same operands in both programs and are
  never opened.  No finiteness of the inputs is needed: nothing is cancelled or distributed.

  The word-level program and its idealization are printed from the same text with no rewrite, so the
  preservation claim is empty.
-/
import proofs.«118931_j30133490549162_2_alg».proof.Defs
import proofs.«118931_j30133490549162_2_alg».proof.Proof.Gen.Kernel
import proofs.«118931_j30133490549162_2_alg».proof.Proof.Gen.Kernel.Skeleton
import proofs.«118931_j30133490549162_2_alg».proof.Proof.Gen.Kernel.Launch
import proofs.«118931_j30133490549162_2_alg».proof.Proof.Gen.Kernel.Points
import proofs.«118931_j30133490549162_2_alg».proof.Proof.Gen.Kernel.Frame
import proofs.«118931_j30133490549162_2_alg».proof.Proof.Gen.KernelIdeal
import proofs.«118931_j30133490549162_2_alg».proof.Proof.Gen.KernelIdeal.Skeleton
import proofs.«118931_j30133490549162_2_alg».proof.Proof.Gen.KernelIdeal.Launch
import proofs.«118931_j30133490549162_2_alg».proof.Proof.Gen.KernelIdeal.Points
import proofs.«118931_j30133490549162_2_alg».proof.Proof.Gen.KernelIdeal.Frame
import proofs.«118931_j30133490549162_2_alg».proof.Proof.Gen.ReferenceIdeal
import proofs.«118931_j30133490549162_2_alg».proof.Proof.Gen.Pre_finite_inputs
import proofs.«118931_j30133490549162_2_alg».proof.Proof.KRun
import proofs.«118931_j30133490549162_2_alg».proof.Proof.KValue
import proofs.«118931_j30133490549162_2_alg».proof.Proof.RefRun
import proofs.«118931_j30133490549162_2_alg».proof.Proof.RefOut
import proofs.«118931_j30133490549162_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- The idealized program runs and leaves its arguments as launched. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _)⟩)
    (Cert.ReferenceIdeal.RefRun.run_main (F := Ideal) m ρ)

/-- The idealization rewrote nothing. -/
theorem preserves : Cert.preserves_Kernel_KernelIdeal := trivial

/-- From memories agreeing on the arguments both programs end with the same result array. -/
theorem algebraic : Cert.algebraic_KernelIdeal_ReferenceIdeal := by
  intro m ρ m' ρ' _ hagree
  refine ⟨fun c => Cert.KernelIdeal.KValue.out m c, ?_, ?_⟩
  · exact (θ_run Cert.KernelIdeal.defs _ _).mono
      (fun r h c => ⟨(h c).1.trans (Cert.KernelIdeal.KValue.W6_v57 m ρ c), (h c).2⟩)
      (Cert.KernelIdeal.KRun.run (F := Ideal) m ρ)
  · refine (θ_run Cert.ReferenceIdeal.defs _ _).mono (fun r h c => ?_)
      (Cert.ReferenceIdeal.RefRun.run_main (F := Ideal) m' ρ')
    refine ⟨?_,
     (h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _)⟩
    obtain ⟨e0, e1, e2, e3, e4, e5, e6, e7, e8, e9, e10, e11, e12, e13⟩ := hagree c
    refine (h c Cert.ReferenceIdeal.main_v75).trans ((Cert.ReferenceIdeal.RefRun.out_eq _).trans ?_)
    show Cert.ReferenceIdeal.RefSpec.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) = _
    rw [e0, e1, e2, e3, e4, e5, e6, e7, e8, e9, e10, e11, e12, e13]
    exact (Cert.Bridge.out_eq_refOut m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
